-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S8192x2048 : Shape := ⟨2, ![8192, 2048]⟩
abbrev S8192 : Shape := ⟨1, ![8192]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S4x2048x2048 .f32) (main_arg1 : FVec F S8192x2048 .f32) (main_arg2 : FVec F S8192 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S4x2048x2048 : Shape := ⟨3, ![4, 2048, 2048]⟩
abbrev S8192x2048 : Shape := ⟨2, ![8192, 2048]⟩
abbrev S8192 : Shape := ⟨1, ![8192]⟩
abbrev S1x8192 : Shape := ⟨2, ![1, 8192]⟩
abbrev S512x2048 : Shape := ⟨2, ![512, 2048]⟩
abbrev S512 : Shape := ⟨1, ![512]⟩
abbrev S512x1 : Shape := ⟨2, ![512, 1]⟩
abbrev S8192x8192 : Shape := ⟨2, ![8192, 8192]⟩
abbrev S1024x2048 : Shape := ⟨2, ![1024, 2048]⟩
abbrev S1x1024 : Shape := ⟨2, ![1, 1024]⟩
abbrev S1024x1024 : Shape := ⟨2, ![1024, 1024]⟩
abbrev S4x2048x8192 : Shape := ⟨3, ![4, 2048, 8192]⟩

abbrev nBuf : Space → Nat
  | .hbm => 9
  | .vmem => 16
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .f32⟩
  | .hbm, ⟨2, _⟩ => ⟨S8192, .f32⟩
  | .hbm, ⟨3, _⟩ => ⟨S8192x2048, .f32⟩
  | .hbm, ⟨4, _⟩ => ⟨S1x8192, .f32⟩
  | .hbm, ⟨5, _⟩ => ⟨S8192x2048, .bf16⟩
  | .hbm, ⟨6, _⟩ => ⟨S8192x2048, .bf16⟩
  | .hbm, ⟨7, _⟩ => ⟨S8192x8192, .f32⟩
  | .hbm, ⟨8, _⟩ => ⟨S4x2048x8192, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .bf16⟩
  | .local _ .vmem, ⟨7, _⟩ => ⟨S512x2048, .bf16⟩
  | .local _ .vmem, ⟨8, _⟩ => ⟨S1024x2048, .bf16⟩
  | .local _ .vmem, ⟨9, _⟩ => ⟨S1024x2048, .bf16⟩
  | .local _ .vmem, ⟨10, _⟩ => ⟨S1024x2048, .bf16⟩
  | .local _ .vmem, ⟨11, _⟩ => ⟨S1024x2048, .bf16⟩
  | .local _ .vmem, ⟨12, _⟩ => ⟨S1x1024, .f32⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  shapeCasts_S4x2048x2048_S8192x2048 : S4x2048x2048.ShapeCasts S8192x2048
  shapeCasts_S8192_S1x8192 : S8192.ShapeCasts S1x8192
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  reduces_S512x2048_S512 : S512x2048.Reduces [1] S512
  shapeCasts_S512_S512x1 : S512.ShapeCasts S512x1
  broadcasts_S512x1_S512x2048 : S512x1.Broadcasts S512x2048
  bitsLt_bf16_f32 : FTy.bits .bf16 < FTy.bits .f32
  packedbf16_S512x2048_S512x2048_0_0 : (Rect.unit (s := S512x2048) ![0, 0] S512x2048.size inb_S512x2048_S512x2048_0_0).PackedRows (EltTy.packing .bf16)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  shapeCasts_S8192x8192_S4x2048x8192 : S8192x8192.ShapeCasts S4x2048x8192
  dot_S1024x2048_S1024x2048_S1024x1024_1_1_0_0_n_n_wf : DotDims.WF S1024x2048 S1024x2048 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .bf16 = 32 ∨ (Rect.block (s := S8192x2048) S512x2048.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S8192x2048.size a
  hwx1_0 : ∀ i : grid1.Coords, EltTy.bits .f32 = 32 ∨ (Rect.block (s := S8192x2048) S512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S8192x2048.size a
  hwx1_1 : ∀ i : grid1.Coords, EltTy.bits .bf16 = 32 ∨ (Rect.block (s := S8192x2048) S512x2048.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S8192x2048.size a
  hwx2_0 : ∀ i : grid2.Coords, EltTy.bits .bf16 = 32 ∨ (Rect.block (s := S8192x2048) S1024x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x2048.size a ≤ S8192x2048.size a
  hwx2_1 : ∀ i : grid2.Coords, EltTy.bits .bf16 = 32 ∨ (Rect.block (s := S8192x2048) S1024x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x8192.size a
  hwx2_2 : ∀ i : grid2.Coords, EltTy.bits .f32 = 32 ∨ (Rect.block (s := S1x8192) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x8192.size a
  hwx2_3 : ∀ i : grid2.Coords, EltTy.bits .f32 = 32 ∨ (Rect.block (s := S8192x8192) S1024x1024.size (cc2_transform_3 i) (hinb2_3 i)).WholeWords (EltTy.packing .f32)

variable [Facts₀]

def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S512x2048.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v2) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S1024x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v4) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x2048x2048 : Shape := ⟨3, ![4, 2048, 2048]⟩
abbrev S8192x2048 : Shape := ⟨2, ![8192, 2048]⟩
abbrev S8192 : Shape := ⟨1, ![8192]⟩
abbrev S_ : Shape := ⟨0, ![]⟩
abbrev S8192x1 : Shape := ⟨2, ![8192, 1]⟩
abbrev S4x2048 : Shape := ⟨2, ![4, 2048]⟩
abbrev S4x2048x1 : Shape := ⟨3, ![4, 2048, 1]⟩
abbrev S4x2048x8192 : Shape := ⟨3, ![4, 2048, 8192]⟩
abbrev S1x1x8192 : Shape := ⟨3, ![1, 1, 8192]⟩

abbrev nBuf : Space → Nat
  | .hbm => 97
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .f32⟩
  | .hbm, ⟨2, _⟩ => ⟨S8192, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .i1⟩
  | .hbm, ⟨22, _⟩ => ⟨S_, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S8192x2048, .f32⟩
  | .hbm, ⟨38, _⟩ => ⟨S8192x2048, .f32⟩
  | .hbm, ⟨39, _⟩ => ⟨S_, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S_, .f32⟩
  | .hbm, ⟨49, _⟩ => ⟨S4x2048, .f32⟩
  | .hbm, ⟨50, _⟩ => ⟨S4x2048x1, .f32⟩
  | .hbm, ⟨51, _⟩ => ⟨S_, .f32⟩
  | .hbm, ⟨52, _⟩ => ⟨S4x2048x1, .f32⟩
  | .hbm, ⟨53, _⟩ => ⟨S4x2048x1, .f32⟩
  | .hbm, ⟨54, _⟩ => ⟨S_, .f32⟩
  | .hbm, ⟨55, _⟩ => ⟨S4x2048, .f32⟩
  | .hbm, ⟨56, _⟩ => ⟨S4x2048x1, .f32⟩
  | .hbm, ⟨57, _⟩ => ⟨S_, .f32⟩
  | .hbm, ⟨58, _⟩ => ⟨S4x2048x1, .f32⟩
  | .hbm, ⟨59, _⟩ => ⟨S4x2048x1, .f32⟩
  | .hbm, ⟨60, _⟩ => ⟨S4x2048x1, .f32⟩
  | .hbm, ⟨61, _⟩ => ⟨S_, .f32⟩
  | .hbm, ⟨62, _⟩ => ⟨S4x2048x1, .f32⟩
  | .hbm, ⟨63, _⟩ => ⟨S4x2048x1, .f32⟩
  | .hbm, ⟨64, _⟩ => ⟨S_, .f32⟩
  | .hbm, ⟨65, _⟩ => ⟨S4x2048x1, .f32⟩
  | .hbm, ⟨66, _⟩ => ⟨S4x2048x1, .i1⟩
  | .hbm, ⟨67, _⟩ => ⟨S_, .f32⟩
  | .hbm, ⟨68, _⟩ => ⟨S_, .f32⟩
  | .hbm, ⟨69, _⟩ => ⟨S4x2048x1, .f32⟩
  | .hbm, ⟨70, _⟩ => ⟨S4x2048x1, .f32⟩
  | .hbm, ⟨71, _⟩ => ⟨S4x2048x1, .f32⟩
  | .hbm, ⟨72, _⟩ => ⟨S4x2048x1, .f32⟩
  | .hbm, ⟨73, _⟩ => ⟨S4x2048x1, .f32⟩
  | .hbm, ⟨74, _⟩ => ⟨S4x2048x2048, .f32⟩
  | .hbm, ⟨75, _⟩ => ⟨S4x2048x2048, .f32⟩
  | .hbm, ⟨76, _⟩ => ⟨S4x2048x2048, .f32⟩
  | .hbm, ⟨77, _⟩ => ⟨S4x2048x2048, .f32⟩
  | .hbm, ⟨78, _⟩ => ⟨S4x2048x2048, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S4x2048x2048, .f32⟩
  | .hbm, ⟨83, _⟩ => ⟨S4x2048x2048, .f32⟩
  | .hbm, ⟨84, _⟩ => ⟨S_, .f32⟩
  | .hbm, ⟨85, _⟩ => ⟨S4x2048x2048, .f32⟩
  | .hbm, ⟨86, _⟩ => ⟨S4x2048x2048, .f32⟩
  | .hbm, ⟨87, _⟩ => ⟨S4x2048x2048, .f32⟩
  | .hbm, ⟨88, _⟩ => ⟨S4x2048x2048, .f32⟩
  | .hbm, ⟨89, _⟩ => ⟨S4x2048x2048, .f32⟩
  | .hbm, ⟨90, _⟩ => ⟨S4x2048x2048, .f32⟩
  | .hbm, ⟨91, _⟩ => ⟨S4x2048x2048, .f32⟩
  | .hbm, ⟨92, _⟩ => ⟨S4x2048x2048, .f32⟩
  | .hbm, ⟨93, _⟩ => ⟨S4x2048x8192, .f32⟩
  | .hbm, ⟨94, _⟩ => ⟨S1x1x8192, .f32⟩
  | .hbm, ⟨95, _⟩ => ⟨S4x2048x8192, .f32⟩
  | .hbm, ⟨96, _⟩ => ⟨S4x2048x8192, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_cst_4 : Ref sig .tc := ⟨.hbm, 19, rfl⟩
abbrev main_v11 : Ref sig .tc := ⟨.hbm, 20, rfl⟩
abbrev main_v12 : Ref sig .tc := ⟨.hbm, 21, rfl⟩
abbrev main_cst_5 : Ref sig .tc := ⟨.hbm, 22, rfl⟩
abbrev main_call0_v0 : Ref sig .tc := ⟨.hbm, 23, rfl⟩
abbrev main_call0_v1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_cst_7 : Ref sig .tc := ⟨.hbm, 35, rfl⟩
abbrev main_call3_v0 : Ref sig .tc := ⟨.hbm, 36, rfl⟩
abbrev main_call3_v1 : Ref sig .tc := ⟨.hbm, 37, rfl⟩
abbrev main_call3_v2 : Ref sig .tc := ⟨.hbm, 38, rfl⟩
abbrev main_call3_v3 : Ref sig .tc := ⟨.hbm, 39, rfl⟩
abbrev main_call3_v4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_8 : Ref sig .tc := ⟨.hbm, 48, rfl⟩
abbrev main_v29 : Ref sig .tc := ⟨.hbm, 49, rfl⟩
abbrev main_v30 : Ref sig .tc := ⟨.hbm, 50, rfl⟩
abbrev main_cst_9 : Ref sig .tc := ⟨.hbm, 51, rfl⟩
abbrev main_v31 : Ref sig .tc := ⟨.hbm, 52, rfl⟩
abbrev main_v32 : Ref sig .tc := ⟨.hbm, 53, rfl⟩
abbrev main_cst_10 : Ref sig .tc := ⟨.hbm, 54, rfl⟩
abbrev main_v33 : Ref sig .tc := ⟨.hbm, 55, rfl⟩
abbrev main_v34 : Ref sig .tc := ⟨.hbm, 56, rfl⟩
abbrev main_cst_11 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_12 : Ref sig .tc := ⟨.hbm, 61, rfl⟩
abbrev main_v38 : Ref sig .tc := ⟨.hbm, 62, rfl⟩
abbrev main_v39 : Ref sig .tc := ⟨.hbm, 63, rfl⟩
abbrev main_cst_13 : Ref sig .tc := ⟨.hbm, 64, rfl⟩
abbrev main_v40 : Ref sig .tc := ⟨.hbm, 65, rfl⟩
abbrev main_v41 : Ref sig .tc := ⟨.hbm, 66, rfl⟩
abbrev main_cst_14 : Ref sig .tc := ⟨.hbm, 67, rfl⟩
abbrev main_call4_v0 : Ref sig .tc := ⟨.hbm, 68, rfl⟩
abbrev main_call4_v1 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_15 : Ref sig .tc := ⟨.hbm, 79, rfl⟩
abbrev main_cst_16 : Ref sig .tc := ⟨.hbm, 80, rfl⟩
abbrev main_call7_v0 : Ref sig .tc := ⟨.hbm, 81, rfl⟩
abbrev main_call7_v1 : Ref sig .tc := ⟨.hbm, 82, rfl⟩
abbrev main_call7_v2 : Ref sig .tc := ⟨.hbm, 83, rfl⟩
abbrev main_call7_v3 : Ref sig .tc := ⟨.hbm, 84, rfl⟩
abbrev main_call7_v4 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩

abbrev nD : Nat := 1
abbrev τ : Topo := Topo.v7x

variable {F : FTy → Type} [FloatOps F]

class Facts₀ : Prop where
  reducesTo_S8192x2048_S8192_d1 : S8192x2048.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x2048_0_1 : S8192x1.BroadcastsInDim S8192x2048 (![0, 1] : Fin 2 → Fin S8192x2048.rank)
  bcast_S_S8192x2048 : S_.BroadcastsInDim S8192x2048 (![] : Fin 0 → Fin S8192x2048.rank)
  reducesTo_S4x2048x2048_S4x2048_d2 : S4x2048x2048.ReducesTo [2] S4x2048
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x2048_0_1_2 : S4x2048x1.BroadcastsInDim S4x2048x2048 (![0, 1, 2] : Fin 3 → Fin S4x2048x2048.rank)
  bcast_S_S4x2048x2048 : S_.BroadcastsInDim S4x2048x2048 (![] : Fin 0 → Fin S4x2048x2048.rank)
  bcast_S8192_S1x1x8192_2 : S8192.BroadcastsInDim S1x1x8192 (![2] : Fin 1 → Fin S1x1x8192.rank)
  bcast_S1x1x8192_S4x2048x8192_0_1_2 : S1x1x8192.BroadcastsInDim S4x2048x8192 (![0, 1, 2] : Fin 3 → Fin S4x2048x8192.rank)
  dot_S4x2048x2048_S8192x2048_S4x2048x8192_2_1_01_0_n_n_wf : DotDims.WF S4x2048x2048 S8192x2048 S4x2048x8192 [2] [1] [0, 1] [0] [] []

variable [Facts₀]

def dot_S4x2048x2048_S8192x2048_S4x2048x8192_2_1_01_0_n_n : DotDims S4x2048x2048 S8192x2048 S4x2048x8192 where
  lhsContracting := [2]
  rhsContracting := [1]
  lhsNonContracting := [0, 1]
  rhsNonContracting := [0]
  lhsBatch := []
  rhsBatch := []
  wf := dot_S4x2048x2048_S8192x2048_S4x2048x8192_2_1_01_0_n_n_wf

class Facts : Prop extends Facts₀ where

variable [Facts]
-- ==== Proof.LibMinFold.lean ====
/-
  A minimum taken from a starting value over a finite family, on the extended reals.

  `minOver a f` is the least of `a` and the values `f p`.  It is determined by its lower bounds:
  `c ≤ minOver a f` exactly when `c ≤ a` and `c ≤ f p` for every `p`.  Two consequences carry every
  proof below.  The value depends only on the SET of values `f` takes, not on how the family is indexed
  or how often a value repeats (`minOver_eq_of_values`); and a minimum of minima, each started from the
  same `a`, is the minimum over the pairs (`minOver_minOver`) — `min` is commutative, associative and
  idempotent, so a starting value met several times counts once.  No finiteness of the entries is used:
  the laws hold at `+∞` and `-∞` as well.

  A reduction by `minimum` along some axes — the vector unit's `multi_reduction <minimumf>`, or the
  host's `reduce` with a `minimum` body — folds `min` from its starting value over the source entries
  whose kept coordinates are the result's.  `multiReduction_min_eq_minOver` and
  `hostReduce_min_eq_minOver` read such a reduction at a result index as `minOver` over ANY family `f`
  that lists exactly those source entries.
-/
import Idealize.ShloMosaic.PureOps.Ideal
import Idealize.ShloMosaic.PureOps.Ideal.Laws
import Idealize.ShloMosaic.PureOps.Reduce

noncomputable section

namespace Cert.MinFold

open Idealize.ShloMosaic

variable {ι κ : Type} [Fintype ι] [Fintype κ]

/-- The least of `a` and the values `f p`, `p` ranging over a finite type. -/
def minOver (a : EReal) (f : ι → EReal) : EReal := (Finset.univ : Finset ι).fold min a f

/-- Its lower bounds: those of `a` that are lower bounds of every `f p`. -/
theorem le_minOver_iff (a : EReal) (f : ι → EReal) (c : EReal) : c ≤ minOver a f ↔ c ≤ a ∧ ∀ p, c ≤ f p := by
  unfold minOver
  rw [Finset.le_fold_min]
  exact and_congr_right fun _ => ⟨fun h p => h p (Finset.mem_univ p), fun h p _ => h p⟩

/-- A value with those lower bounds is the minimum. -/
theorem eq_minOver_of_le_iff {v a : EReal} {f : ι → EReal} (h : ∀ c, c ≤ v ↔ c ≤ a ∧ ∀ p, c ≤ f p) :
    v = minOver a f :=
  eq_of_forall_le_iff fun c => (h c).trans (le_minOver_iff a f c).symm

/-- A fold of `min` from `a` over the members of a finite set that satisfy `P` is `minOver a f`, for any
    family `f` taking exactly the values `x` takes on those members. -/
theorem fold_min_filter_eq_minOver {α : Type} [Fintype α] (P : α → Prop) [DecidablePred P] (a : EReal)
    (x : α → EReal) (f : ι → EReal) (h1 : ∀ p, ∃ i, P i ∧ x i = f p) (h2 : ∀ i, P i → ∃ p, f p = x i) :
    (Finset.univ.filter P).fold min a x = minOver a f := by
  refine eq_minOver_of_le_iff fun c => ?_
  rw [Finset.le_fold_min]
  refine and_congr_right fun _ => ⟨fun h p => ?_, fun h i hi => ?_⟩
  · obtain ⟨i, hi, e⟩ := h1 p
    exact e ▸ h i (Finset.mem_filter.mpr ⟨Finset.mem_univ i, hi⟩)
  · obtain ⟨p, e⟩ := h2 i (Finset.mem_filter.mp hi).2
    exact e ▸ h p

/-- The minimum depends only on the values taken. -/
theorem minOver_eq_of_values (a : EReal) (f : ι → EReal) (g : κ → EReal) (h1 : ∀ q, ∃ p, f p = g q)
    (h2 : ∀ p, ∃ q, g q = f p) : minOver a f = minOver a g := by
  refine eq_minOver_of_le_iff fun c => ?_
  rw [le_minOver_iff]
  refine and_congr_right fun _ => ⟨fun h q => ?_, fun h p => ?_⟩
  · obtain ⟨p, e⟩ := h1 q; exact e ▸ h p
  · obtain ⟨q, e⟩ := h2 p; exact e ▸ h q

/-- Pointwise equal families have equal minima. -/
theorem minOver_congr (a : EReal) {f g : ι → EReal} (h : ∀ p, f p = g p) : minOver a f = minOver a g :=
  congrArg (minOver a) (funext h)

/-- A minimum over `k` of minima over `r`, all started from `a`, is the minimum over the pairs `(r, k)`. -/
theorem minOver_minOver (a : EReal) (g : ι → κ → EReal) :
    minOver a (fun k => minOver a fun r => g r k) = minOver a fun p : ι × κ => g p.1 p.2 := by
  refine eq_minOver_of_le_iff fun c => ?_
  rw [le_minOver_iff]
  simp only [le_minOver_iff]
  exact ⟨fun ⟨ha, h⟩ => ⟨ha, fun p => (h p.2).2 p.1⟩, fun ⟨ha, h⟩ => ⟨ha, fun k => ⟨ha, fun r => h (r, k)⟩⟩⟩

/-- The vector unit's reduction by minimum, at a result index `j`, on the extended reals: the least of
    its starting value and the source entries whose kept coordinates are `j`, listed by any family `f`. -/
theorem multiReduction_min_eq_minOver {s t : Shape} {φ : FTy} {axes : List (Fin s.rank)} (src : FVec Ideal s φ)
    (acc : BitVec φ.bits) (h : s.Reduces axes t) (hφ : FKind.Formats φ) (hacc : acc = FKind.minimumf.neutral φ hφ)
    (j : t.Idx) (f : ι → EReal) (h1 : ∀ p, ∃ i, h.drop i = j ∧ src i = f p)
    (h2 : ∀ i, h.drop i = j → ∃ p, f p = src i) :
    multiReduction .minimumf axes t src acc h hφ hacc j = minOver (Ideal.ofBits φ acc) f := by
  rw [multiReduction_minimumf_eq_fold]
  exact fold_min_filter_eq_minOver (fun i => h.drop i = j) _ src f h1 h2

/-- The host's one-operand reduction with a `minimum` body, likewise, from its starting value's one entry. -/
theorem hostReduce_min_eq_minOver {s t u : Shape} {φ : FTy} {axes : List (Fin s.rank)} (x : FVec Ideal s φ)
    (init : FVec Ideal u φ) (h : s.ReducesTo axes t) (hu : 0 < u.numel) (j : t.Idx) (f : ι → EReal)
    (h1 : ∀ p, ∃ i, h.drop i = j ∧ x i = f p) (h2 : ∀ i, h.drop i = j → ∃ p, f p = x i) :
    Host.reduce (FloatOps.minimumf (F := Ideal) (φ := φ)) x init h hu j = minOver (init (Shape.Idx.first hu)) f := by
  rw [Host.reduce_eq_fold]
  exact fold_min_filter_eq_minOver (fun i => h.drop i = j) _ x f h1 h2

end Cert.MinFold

end
-- ==== Proof.LibPoolFold.lean ====
/-
  Sums and maxima over the source entries that reduce to one result index, on the extended reals.

  A reduction along some axes of an array gathers, at a result index `j`, the source entries whose kept
  coordinates are `j`.  When a family `e : ι → source index` lists exactly those entries, each once
  (`e` injective, every `e p` reduces to `j`, every entry reducing to `j` is some `e p`), a reduction by
  addition is the sum over `ι` of the source at `e p` — for the vector unit's `multi_reduction <add>` and,
  with the starting value added, for the host's `reduce` with an `add` body.  Any number of axes may be
  reduced: the caller chooses `ι` (a product of coordinate ranges, say) and supplies the listing.

  `maxOver a f` is the greatest of `a` and the values `f p`.  It is determined by its upper bounds:
  `maxOver a f ≤ c` exactly when `a ≤ c` and `f p ≤ c` for every `p`.  So it depends only on the SET of
  values `f` takes (`maxOver_eq_of_values`), in particular not on how the family is indexed
  (`maxOver_comp_equiv`); `max` is commutative, associative and idempotent, and no finiteness of the entries
  is used: the laws hold at `+∞` and `-∞` as well.  A reduction by `maximum` — the vector unit's
  `multi_reduction <maximumf>` or the host's `reduce` with a `maximum` body, along any axes — read at a result
  index is `maxOver` over ANY family that lists the values of the source entries reducing to it.
  `rowMax_apply` is the one-axis case of an `[n, c]` array: the maximum of a row.
-/
import Idealize.ShloMosaic.PureOps.Ideal
import Idealize.ShloMosaic.PureOps.Ideal.Laws
import Idealize.ShloMosaic.PureOps.Reduce
import Idealize.ShloMosaic.Lib.ValueIdx

noncomputable section

open scoped BigOperators

namespace Cert.PoolFold

open Idealize.ShloMosaic Idealize.ShloMosaic.ValueIdx

variable {ι κ : Type} [Fintype ι] [Fintype κ]

/-! ## Sums -/

/-- A sum over the members of a finite type that satisfy `P` is the sum over any family listing them once. -/
theorem sum_filter_eq_sum_family {α M : Type} [Fintype α] [AddCommMonoid M] (P : α → Prop) [DecidablePred P]
    (x : α → M) (e : ι → α) (hinj : Function.Injective e) (hP : ∀ p, P (e p)) (hsurj : ∀ i, P i → ∃ p, e p = i) :
    ∑ i ∈ Finset.univ.filter P, x i = ∑ p, x (e p) := by
  refine (Finset.sum_nbij e (fun p _ => Finset.mem_filter.mpr ⟨Finset.mem_univ _, hP p⟩) hinj.injOn
    (fun i hi => ?_) (fun _ _ => rfl)).symm
  obtain ⟨p, rfl⟩ := hsurj i (Finset.mem_filter.mp (Finset.mem_coe.mp hi)).2
  exact ⟨p, Finset.mem_coe.mpr (Finset.mem_univ p), rfl⟩

/-- The vector unit's reduction by addition, at a result index `j`: the sum of the source over a family
    listing once each entry whose kept coordinates are `j`. -/
theorem multiReduction_add_eq_sum {s t : Shape} {φ : FTy} {axes : List (Fin s.rank)} (src : FVec Ideal s φ)
    (acc : BitVec φ.bits) (h : s.Reduces axes t) (hφ : FKind.Formats φ) (hacc : acc = FKind.add.neutral φ hφ)
    (j : t.Idx) (e : ι → s.Idx) (hinj : Function.Injective e) (hdrop : ∀ p, h.drop (e p) = j)
    (hsurj : ∀ i, h.drop i = j → ∃ p, e p = i) :
    multiReduction .add axes t src acc h hφ hacc j = ∑ p, src (e p) :=
  sum_filter_eq_sum_family (fun i => h.drop i = j) src e hinj hdrop hsurj

/-- The host's one-operand reduction with an `add` body, likewise, from its starting value's one entry. -/
theorem hostReduceAdd_eq_sum {s t u : Shape} {φ : FTy} {axes : List (Fin s.rank)} (x : FVec Ideal s φ)
    (init : FVec Ideal u φ) (h : s.ReducesTo axes t) (hu : 0 < u.numel) (j : t.Idx) (e : ι → s.Idx)
    (hinj : Function.Injective e) (hdrop : ∀ p, h.drop (e p) = j) (hsurj : ∀ i, h.drop i = j → ∃ p, e p = i) :
    Host.reduceAdd x init h hu j = init (Shape.Idx.first hu) + ∑ p, x (e p) :=
  congrArg (init (Shape.Idx.first hu) + ·) (sum_filter_eq_sum_family (fun i => h.drop i = j) x e hinj hdrop hsurj)

/-! ## Maxima -/

/-- The greatest of `a` and the values `f p`, `p` ranging over a finite type. -/
def maxOver (a : EReal) (f : ι → EReal) : EReal := (Finset.univ : Finset ι).fold max a f

/-- Its upper bounds: those of `a` that are upper bounds of every `f p`. -/
theorem maxOver_le_iff (a : EReal) (f : ι → EReal) (c : EReal) : maxOver a f ≤ c ↔ a ≤ c ∧ ∀ p, f p ≤ c := by
  unfold maxOver
  rw [Finset.fold_max_le]
  exact and_congr_right fun _ => ⟨fun h p => h p (Finset.mem_univ p), fun h p _ => h p⟩

/-- A value with those upper bounds is the maximum. -/
theorem eq_maxOver_of_le_iff {v a : EReal} {f : ι → EReal} (h : ∀ c, v ≤ c ↔ a ≤ c ∧ ∀ p, f p ≤ c) :
    v = maxOver a f :=
  eq_of_forall_ge_iff fun c => (h c).trans (maxOver_le_iff a f c).symm

/-- A fold of `max` from `a` over the members of a finite type that satisfy `P` is `maxOver a f`, for any
    family `f` taking exactly the values `x` takes on those members. -/
theorem fold_max_filter_eq_maxOver {α : Type} [Fintype α] (P : α → Prop) [DecidablePred P] (a : EReal)
    (x : α → EReal) (f : ι → EReal) (h1 : ∀ p, ∃ i, P i ∧ x i = f p) (h2 : ∀ i, P i → ∃ p, f p = x i) :
    (Finset.univ.filter P).fold max a x = maxOver a f := by
  refine eq_maxOver_of_le_iff fun c => ?_
  rw [Finset.fold_max_le]
  refine and_congr_right fun _ => ⟨fun h p => ?_, fun h i hi => ?_⟩
  · obtain ⟨i, hi, e⟩ := h1 p
    exact e ▸ h i (Finset.mem_filter.mpr ⟨Finset.mem_univ i, hi⟩)
  · obtain ⟨p, e⟩ := h2 i (Finset.mem_filter.mp hi).2
    exact e ▸ h p

/-- The maximum depends only on the values taken. -/
theorem maxOver_eq_of_values (a : EReal) (f : ι → EReal) (g : κ → EReal) (h1 : ∀ q, ∃ p, f p = g q)
    (h2 : ∀ p, ∃ q, g q = f p) : maxOver a f = maxOver a g := by
  refine eq_maxOver_of_le_iff fun c => ?_
  rw [maxOver_le_iff]
  refine and_congr_right fun _ => ⟨fun h q => ?_, fun h p => ?_⟩
  · obtain ⟨p, e⟩ := h1 q; exact e ▸ h p
  · obtain ⟨q, e⟩ := h2 p; exact e ▸ h q

/-- Re-indexing the family along a bijection does not change the maximum. -/
theorem maxOver_comp_equiv (a : EReal) (e : ι ≃ κ) (g : κ → EReal) : maxOver a (fun p => g (e p)) = maxOver a g :=
  maxOver_eq_of_values a _ g (fun q => ⟨e.symm q, by rw [e.apply_symm_apply]⟩) (fun p => ⟨e p, rfl⟩)

/-- Pointwise equal families have equal maxima. -/
theorem maxOver_congr (a : EReal) {f g : ι → EReal} (h : ∀ p, f p = g p) : maxOver a f = maxOver a g :=
  congrArg (maxOver a) (funext h)

/-- The vector unit's reduction by maximum, at a result index `j`, on the extended reals: the greatest of
    its starting value and the source entries whose kept coordinates are `j`, listed by any family `f`. -/
theorem multiReduction_max_eq_maxOver {s t : Shape} {φ : FTy} {axes : List (Fin s.rank)} (src : FVec Ideal s φ)
    (acc : BitVec φ.bits) (h : s.Reduces axes t) (hφ : FKind.Formats φ) (hacc : acc = FKind.maximumf.neutral φ hφ)
    (j : t.Idx) (f : ι → EReal) (h1 : ∀ p, ∃ i, h.drop i = j ∧ src i = f p)
    (h2 : ∀ i, h.drop i = j → ∃ p, f p = src i) :
    multiReduction .maximumf axes t src acc h hφ hacc j = maxOver (Ideal.ofBits φ acc) f := by
  rw [multiReduction_maximumf_eq_fold]
  exact fold_max_filter_eq_maxOver (fun i => h.drop i = j) _ src f h1 h2

/-- The host's one-operand reduction with a `maximum` body, likewise, from its starting value's one entry. -/
theorem hostReduce_max_eq_maxOver {s t u : Shape} {φ : FTy} {axes : List (Fin s.rank)} (x : FVec Ideal s φ)
    (init : FVec Ideal u φ) (h : s.ReducesTo axes t) (hu : 0 < u.numel) (j : t.Idx) (f : ι → EReal)
    (h1 : ∀ p, ∃ i, h.drop i = j ∧ x i = f p) (h2 : ∀ i, h.drop i = j → ∃ p, f p = x i) :
    Host.reduce (FloatOps.maximumf (F := Ideal) (φ := φ)) x init h hu j = maxOver (init (Shape.Idx.first hu)) f := by
  rw [Host.reduce_eq_fold]
  exact fold_max_filter_eq_maxOver (fun i => h.drop i = j) _ x f h1 h2

/-- The maximum of an `[n, c]` array along its second axis, started from -∞ (the word `0xFF800000`), reads, at
    row `q`, the greatest of -∞ and the row's entries. -/
theorem rowMax_apply {n c : ℕ} (src : FVec Ideal ⟨2, ![n, c]⟩ .f32)
    (h : (⟨2, ![n, c]⟩ : Shape).Reduces [1] ⟨1, ![n]⟩) (hφ : FKind.Formats .f32)
    (hacc : (0xFF800000#32 : BitVec 32) = 0xFF800000#32) (q : Fin n) :
    multiReduction .maximumf [1] ⟨1, ![n]⟩ src 0xFF800000#32 h hφ hacc (ix1 q)
      = maxOver (Ideal.ofBits .f32 0xFF800000#32) (fun k : Fin c => src (ix2 q k)) := by
  refine (Ideal.multiReduction_maximumf_single src 0xFF800000#32 h hφ hacc (ix1 q)).trans ?_
  unfold maxOver
  refine congrArg (fun g => (Finset.univ : Finset (Fin c)).fold max (Ideal.ofBits .f32 0xFF800000#32) g) (funext fun k => ?_)
  refine congrArg src (funext fun ax => Fin.ext ?_)
  match ax with
  | ⟨0, _⟩ => rfl
  | ⟨1, _⟩ => rfl

end Cert.PoolFold

end
-- ==== Proof.QuantSpec.lean ====
/-
  The mathematics both programs compute, on the extended reals.

  A row `f` of `n` numbers is quantised to four bits and read back.  Its range is widened to contain zero:
  `rowLo f = min (least entry) 0`, `rowHi f = max (greatest entry) 0`.  The step is `(rowHi - rowLo) / 15`, replaced
  by `1` when that quotient is zero (a row of zeros).  The zero point is `-rowLo / step` rounded to the nearest
  integer, ties to even.  Entry `k` becomes `step · (clamp (round (f k / step) + zeroPt) to [0, 15] - zeroPt)`:
  `deq f k`.  Nothing here needs the entries to be finite; the definitions are the extended reals' own operations.

  The straight-through form `f k + (deq f k - f k)` is `deq f k` as soon as `f k` is a real number: a real
  cancels against its negative whatever the other summand is, infinite or not (`ste_eq`).

  The layer's output at batch `p`, token `s`, output channel `o` is the inner product over the 2048 input
  channels of the quantised activation row `(p, s)` with the quantised weight row `o`, plus the bias `b o`.
-/
import Idealize.ShloMosaic.PureOps.Ideal
import Idealize.ShloMosaic.PureOps.Ideal.Laws
import Idealize.ShloMosaic.Lib.ValueIdx
import proofs.«107538_j90357521973659_2_alg».proof.Proof.LibMinFold
import proofs.«107538_j90357521973659_2_alg».proof.Proof.LibPoolFold

noncomputable section

open scoped BigOperators

namespace Cert.QuantSpec

open Idealize.ShloMosaic Idealize.ShloMosaic.ValueIdx Cert.MinFold Cert.PoolFold

variable {n : ℕ}

/-- The float words of `0`, `15`, `1`, `+∞`, `-∞`, each read as the extended real it denotes. -/
def c0 : EReal := Ideal.ofBits .f32 0x00000000#32
def c15 : EReal := Ideal.ofBits .f32 0x41700000#32
def c1 : EReal := Ideal.ofBits .f32 0x3F800000#32
def cTop : EReal := Ideal.ofBits .f32 0x7F800000#32
def cBot : EReal := Ideal.ofBits .f32 0xFF800000#32

/-- The least entry of the row, or zero if that is less. -/
def rowLo (f : Fin n → EReal) : EReal := min (minOver cTop f) c0

/-- The greatest entry of the row, or zero if that is greater. -/
def rowHi (f : Fin n → EReal) : EReal := max (maxOver cBot f) c0

/-- A fifteenth of the widened range. -/
def rawStep (f : Fin n → EReal) : EReal := Ideal.div (rowHi f - rowLo f) c15

/-- The quantisation step: a fifteenth of the widened range, or one when that is zero. -/
def step (f : Fin n → EReal) : EReal := Scalar.select (Ideal.cmp .oeq (rawStep f) c0) c1 (rawStep f)

/-- To the nearest integer, ties to even; the infinities fixed. -/
def rnd (x : EReal) : EReal := Ideal.liftRound Ideal.roundHalfEven x

/-- The zero point: where the real number zero lands on the integer grid. -/
def zeroPt (f : Fin n → EReal) : EReal := rnd (Ideal.div (-(rowLo f)) (step f))

/-- Entry `k` quantised to the grid `0 … 15` and read back. -/
def deq (f : Fin n → EReal) (k : Fin n) : EReal :=
  step f * (min c15 (max c0 (rnd (Ideal.div (f k) (step f)) + zeroPt f)) - zeroPt f)

/-- The straight-through spelling: the entry plus the quantisation error. -/
def ste (f : Fin n → EReal) (k : Fin n) : EReal := f k + (deq f k - f k)

/-- A real entry cancels: the straight-through spelling is the quantised entry. -/
theorem ste_eq (f : Fin n → EReal) (k : Fin n) (r : ℝ) (h : f k = (r : EReal)) : ste f k = deq f k := by
  unfold ste
  rw [h, sub_eq_add_neg, add_comm (deq f k), ← add_assoc, ← EReal.coe_neg, ← EReal.coe_add, add_neg_cancel,
    EReal.coe_zero, zero_add]

/-- The layer's output at batch `p`, token `s`, output channel `o`. -/
def out (x : (⟨3, ![4, 2048, 2048]⟩ : Shape).Idx → EReal) (W : (⟨2, ![8192, 2048]⟩ : Shape).Idx → EReal)
    (b : (⟨1, ![8192]⟩ : Shape).Idx → EReal) (p : Fin 4) (s : Fin 2048) (o : Fin 8192) : EReal :=
  (∑ k : Fin 2048, deq (fun k' => x (ix3 p s k')) k * deq (fun k' => W (ix2 o k')) k) + b (ix1 o)

/-- The whole output array. -/
def outArr (x : (⟨3, ![4, 2048, 2048]⟩ : Shape).Idx → EReal) (W : (⟨2, ![8192, 2048]⟩ : Shape).Idx → EReal)
    (b : (⟨1, ![8192]⟩ : Shape).Idx → EReal) : (⟨3, ![4, 2048, 8192]⟩ : Shape).Idx → EReal :=
  fun i => out x W b (i 0) (i 1) (i 2)

end Cert.QuantSpec

end
-- ==== Proof.FiniteInputs.lean ====
/-
  Finite inputs are real numbers.

  The precondition tests each float argument entrywise, `|x| < +∞`, takes the conjunction over all entries of the
  argument, and takes the conjunction of the three results.  Read on the extended reals, `|x| = max x (-x)` and the
  word `0x7F800000` is `⊤`; an extended real whose absolute value lies strictly below `⊤` is neither `⊤` nor
  `⊥` (for both, `max x (-x) = ⊤`), so it is a real number.  A conjunction of one-bit words is `1` exactly when
  every conjunct is, which carries the entrywise fact out of the whole-array reduction.
-/
import proofs.«107538_j90357521973659_2_alg».proof.Proof.Gen.Pre_finite_inputs
import Idealize.ShloMosaic.Lib.ReduceAll
import Idealize.ShloMosaic.Lib.ValueIdx
import Idealize.ShloMosaic.PureOps.Ideal.Laws

noncomputable section

namespace Cert.FiniteInputs

open Idealize.ShloMosaic

/-- The float word of `+∞` is the top of the extended reals. -/
theorem top_word : Ideal.ofBits .f32 0x7F800000#32 = (⊤ : EReal) := by simp [Ideal.ofBits, Ideal.ieee]

/-- An extended real whose absolute value is strictly below `+∞` is a real number. -/
theorem real_of_abs_lt (x : EReal)
    (h : Ideal.cmp .olt (max x (-x)) (Ideal.ofBits .f32 0x7F800000#32) = 1#1) : ∃ r : ℝ, x = (r : EReal) := by
  rw [top_word] at h
  induction x using EReal.rec with
  | bot => simp [Ideal.cmp] at h
  | coe r => exact ⟨r, rfl⟩
  | top => simp [Ideal.cmp] at h

/-- The entrywise test of the precondition, at one entry: it makes that entry a real number. -/
theorem real_of_entry {s : Shape} (a : FVec Ideal s .f32) (c : FVec Ideal s .f32)
    (hc : ∀ i, c i = Ideal.ofBits .f32 0x7F800000#32) (i : s.Idx)
    (h : cmpf .olt (Host.absf a) c i = 1#1) : ∃ r : ℝ, a i = (r : EReal) := by
  refine real_of_abs_lt (a i) ?_
  rw [← hc i]
  exact h

/-- A rank-zero array has one index. -/
instance : Subsingleton Cert.Pre_finite_inputs.S_.Idx := ⟨fun a b => funext fun d => d.elim0⟩

open Cert.Pre_finite_inputs in
/-- The precondition decoded: every entry of the first two arguments is a real number. -/
theorem real_of_pre [Cert.Pre_finite_inputs.Facts] (a0 : FVec Ideal S4x2048x2048 .f32) (a1 : FVec Ideal S8192x2048 .f32)
    (a2 : FVec Ideal S8192 .f32) (h : Cert.Pre_finite_inputs.fn (F := Ideal) a0 a1 a2 = fun _ => 1#1) :
    (∀ i, ∃ r : ℝ, a0 i = (r : EReal)) ∧ (∀ i, ∃ r : ℝ, a1 i = (r : EReal)) := by
  have e := congrFun h ValueIdx.ix0
  unfold Cert.Pre_finite_inputs.fn at e
  dsimp only [andi] at e
  obtain ⟨e01, -⟩ := IntOp.andi_eq_one.1 e
  obtain ⟨e0, e1⟩ := IntOp.andi_eq_one.1 e01
  refine ⟨fun i => ?_, fun i => ?_⟩
  · exact real_of_entry a0 _ (fun _ => rfl) i (Host.reduce_andi_all _ _ _ _ _ e0 i)
  · exact real_of_entry a1 _ (fun _ => rfl) i (Host.reduce_andi_all _ _ _ _ _ e1 i)

end Cert.FiniteInputs

end
-- ==== Proof.KernelRun.lean ====
/-
  The idealised kernel program's run with its result named.

  The program is five segments: two reshapes on the host, the three kernel launches, one reshape on the host.
  The generated frame proof runs them in order over a thread state that holds every unscoped buffer at the
  contents the segments leave, boundary by boundary; its last boundary's contents are `W5`.  Read at the
  argument arrays that gives the frame claim.  Read at the result buffer as well, the same run says that
  every weakly fair execution ends with the result array at `W5`'s value there, the arguments unchanged.
-/
import proofs.«107538_j90357521973659_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting, with the result array at the last
    boundary's contents and the argument arrays as launched. -/
theorem run_result : θ_run defs (onTc (τ := τ) (main (F := F))) ⟨m, fun _ => 0, ρ⟩ (fun r => ∀ c : Dev nD,
      r.2.mem ((c.tc : Thread nD τ).loc main_v5) = W5 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v5 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.KernelIdeal.Result

end
-- ==== Proof.RefBridge.lean ====
/-
  The reference program computes the specification.

  The reference quantises each weight row and each activation row in the straight-through spelling
  `a + (deq - a)`, contracts the two over the input channels and adds the bias.  Read at one index, every stage
  between a row's minimum and maximum and its straight-through entry is one operation of the extended reals on
  the row's statistics: the minimum and maximum widened to contain zero, the step, the zero point, the clamp.  A
  reduction by minimum (maximum) along the last axis, read at a row, is the least (greatest) of its starting value
  and the row's entries, because the source indices that drop to the row are exactly the row's entries.  The
  straight-through spelling of a real entry is the quantised entry, so the contraction is the specification's
  inner product of quantised rows, and the sum with the bias is the specification's output.
-/
import proofs.«107538_j90357521973659_2_alg».proof.Proof.Gen.ReferenceIdeal.Read
import proofs.«107538_j90357521973659_2_alg».proof.Proof.QuantSpec

noncomputable section

open scoped BigOperators

namespace Cert.RefBridge

open Idealize.ShloMosaic Idealize.ShloMosaic.ValueIdx Cert.ReferenceIdeal Cert.ReferenceIdeal.Read Cert.QuantSpec
  Cert.MinFold Cert.PoolFold

/-- Dropping the column of a weight index leaves its row. -/
theorem drop_w (h : S8192x2048.ReducesTo [1] S8192) (o : Fin 8192) (k : Fin 2048) : h.drop (ix2 o k) = ix1 o := by
  funext b
  match b with
  | ⟨0, _⟩ => exact Fin.ext (h.drop_apply_val_of_eq (ix2 o k) ⟨0, by decide⟩ 0)

/-- A weight index whose row is `o` is `(o, k)` for its column `k`. -/
theorem drop_w_inv (h : S8192x2048.ReducesTo [1] S8192) (o : Fin 8192) (i : S8192x2048.Idx) (hi : h.drop i = ix1 o) :
    i = ix2 o (i 1 : Fin 2048) := by
  have e : (i 0).val = o.val :=
    (h.drop_apply_val_of_eq i ⟨0, by decide⟩ 0).symm.trans (congrArg Fin.val (congrFun hi ⟨0, by decide⟩))
  funext a
  match a with
  | ⟨0, _⟩ => exact Fin.ext e
  | ⟨1, _⟩ => rfl

theorem v0_eq (x1 : (⟨S8192x2048, .f32⟩ : BufTy).Contents (Elt Ideal)) (o : Fin 8192) :
    val_main_v0 (F := Ideal) x1 (ix1 o) = minOver cTop (fun k' : Fin 2048 => x1 (ix2 o k')) := by
  unfold val_main_v0
  refine (hostReduce_min_eq_minOver x1 _ _ _ (ix1 o) (fun k' : Fin 2048 => x1 (ix2 o k')) ?_ ?_).trans rfl
  · exact fun p => ⟨ix2 o p, drop_w _ o p, rfl⟩
  · exact fun i hi => ⟨(i 1 : Fin 2048), congrArg x1 (drop_w_inv _ o i hi).symm⟩

theorem v4_eq (x1 : (⟨S8192x2048, .f32⟩ : BufTy).Contents (Elt Ideal)) (o : Fin 8192) :
    val_main_v4 (F := Ideal) x1 (ix1 o) = maxOver cBot (fun k' : Fin 2048 => x1 (ix2 o k')) := by
  unfold val_main_v4
  refine (hostReduce_max_eq_maxOver x1 _ _ _ (ix1 o) (fun k' : Fin 2048 => x1 (ix2 o k')) ?_ ?_).trans rfl
  · exact fun p => ⟨ix2 o p, drop_w _ o p, rfl⟩
  · exact fun i hi => ⟨(i 1 : Fin 2048), congrArg x1 (drop_w_inv _ o i hi).symm⟩

theorem v3_eq (x1 : (⟨S8192x2048, .f32⟩ : BufTy).Contents (Elt Ideal)) (o : Fin 8192) (z : Fin 1) :
    val_main_v3 (F := Ideal) x1 (ix2 o z) = rowLo (fun k' : Fin 2048 => x1 (ix2 o k')) := by
  have e : idx_main_v1 (ix2 o z) = ix1 o := funext fun a => match a with | ⟨0, _⟩ => rfl
  rw [val_main_v3_apply, val_main_v1_apply, val_main_v2_apply, e, v0_eq]
  rfl

theorem v7_eq (x1 : (⟨S8192x2048, .f32⟩ : BufTy).Contents (Elt Ideal)) (o : Fin 8192) (z : Fin 1) :
    val_main_v7 (F := Ideal) x1 (ix2 o z) = rowHi (fun k' : Fin 2048 => x1 (ix2 o k')) := by
  have e : idx_main_v5 (ix2 o z) = ix1 o := funext fun a => match a with | ⟨0, _⟩ => rfl
  rw [val_main_v7_apply, val_main_v5_apply, val_main_v6_apply, e, v4_eq]
  rfl

theorem v10_eq (x1 : (⟨S8192x2048, .f32⟩ : BufTy).Contents (Elt Ideal)) (o : Fin 8192) (z : Fin 1) :
    val_main_v10 (F := Ideal) x1 (ix2 o z) = rawStep (fun k' : Fin 2048 => x1 (ix2 o k')) := by
  rw [val_main_v10_apply, val_main_v8_apply, val_main_v9_apply, v7_eq, v3_eq]
  rfl

theorem v13_eq (x1 : (⟨S8192x2048, .f32⟩ : BufTy).Contents (Elt Ideal)) (o : Fin 8192) (z : Fin 1) :
    val_main_v13 (F := Ideal) x1 (ix2 o z) = step (fun k' : Fin 2048 => x1 (ix2 o k')) := by
  rw [val_main_v13_apply, val_main_v12_apply, val_main_v11_apply, val_main_call0_v1_apply, v10_eq]
  rfl

theorem v16_eq (x1 : (⟨S8192x2048, .f32⟩ : BufTy).Contents (Elt Ideal)) (o : Fin 8192) (z : Fin 1) :
    val_main_v16 (F := Ideal) x1 (ix2 o z) = zeroPt (fun k' : Fin 2048 => x1 (ix2 o k')) := by
  rw [val_main_v16_apply, val_main_v15_apply, val_main_v14_apply, v13_eq, v3_eq]
  rfl

theorem v28_eq (x1 : (⟨S8192x2048, .f32⟩ : BufTy).Contents (Elt Ideal)) (o : Fin 8192) (k : Fin 2048) :
    val_main_v28 (F := Ideal) x1 (ix2 o k) = ste (fun k' : Fin 2048 => x1 (ix2 o k')) k := by
  have e17 : idx_main_v17 (ix2 o k) = ix2 o (0 : Fin 1) :=
    funext fun a => match a with | ⟨0, _⟩ => rfl | ⟨1, _⟩ => rfl
  have e20 : idx_main_v20 (ix2 o k) = ix2 o (0 : Fin 1) :=
    funext fun a => match a with | ⟨0, _⟩ => rfl | ⟨1, _⟩ => rfl
  have e23 : idx_main_v23 (ix2 o k) = ix2 o (0 : Fin 1) :=
    funext fun a => match a with | ⟨0, _⟩ => rfl | ⟨1, _⟩ => rfl
  have e25 : idx_main_v25 (ix2 o k) = ix2 o (0 : Fin 1) :=
    funext fun a => match a with | ⟨0, _⟩ => rfl | ⟨1, _⟩ => rfl
  rw [val_main_v28_apply, val_main_v27_apply, val_main_v26_apply, val_main_v25_apply, val_main_v24_apply,
    val_main_v23_apply, val_main_v22_apply, val_main_call3_v4_apply, val_main_call3_v2_apply,
    val_main_call3_v1_apply, val_main_v21_apply, val_main_v20_apply, val_main_v19_apply, val_main_v18_apply,
    val_main_v17_apply, e17, e20, e23, e25, v13_eq, v16_eq]
  rfl

/-- Dropping the channel of an activation index leaves its batch and token. -/
theorem drop_x (h : S4x2048x2048.ReducesTo [2] S4x2048) (p : Fin 4) (s : Fin 2048) (k : Fin 2048) :
    h.drop (ix3 p s k) = ix2 p s := by
  funext b
  match b with
  | ⟨0, _⟩ => exact Fin.ext (h.drop_apply_val_of_eq (ix3 p s k) ⟨0, by decide⟩ 0)
  | ⟨1, _⟩ => exact Fin.ext (h.drop_apply_val_of_eq (ix3 p s k) ⟨1, by decide⟩ 1)

/-- An activation index whose batch and token are `p`, `s` is `(p, s, k)` for its channel `k`. -/
theorem drop_x_inv (h : S4x2048x2048.ReducesTo [2] S4x2048) (p : Fin 4) (s : Fin 2048) (i : S4x2048x2048.Idx)
    (hi : h.drop i = ix2 p s) : i = ix3 p s (i 2 : Fin 2048) := by
  have e0 : (i 0).val = p.val :=
    (h.drop_apply_val_of_eq i ⟨0, by decide⟩ 0).symm.trans (congrArg Fin.val (congrFun hi ⟨0, by decide⟩))
  have e1 : (i 1).val = s.val :=
    (h.drop_apply_val_of_eq i ⟨1, by decide⟩ 1).symm.trans (congrArg Fin.val (congrFun hi ⟨1, by decide⟩))
  funext a
  match a with
  | ⟨0, _⟩ => exact Fin.ext e0
  | ⟨1, _⟩ => exact Fin.ext e1
  | ⟨2, _⟩ => rfl

theorem v29_eq (x0 : (⟨S4x2048x2048, .f32⟩ : BufTy).Contents (Elt Ideal)) (p : Fin 4) (s : Fin 2048) :
    val_main_v29 (F := Ideal) x0 (ix2 p s) = minOver cTop (fun k' : Fin 2048 => x0 (ix3 p s k')) := by
  unfold val_main_v29
  refine (hostReduce_min_eq_minOver x0 _ _ _ (ix2 p s) (fun k' : Fin 2048 => x0 (ix3 p s k')) ?_ ?_).trans rfl
  · exact fun q => ⟨ix3 p s q, drop_x _ p s q, rfl⟩
  · exact fun i hi => ⟨(i 2 : Fin 2048), congrArg x0 (drop_x_inv _ p s i hi).symm⟩

theorem v33_eq (x0 : (⟨S4x2048x2048, .f32⟩ : BufTy).Contents (Elt Ideal)) (p : Fin 4) (s : Fin 2048) :
    val_main_v33 (F := Ideal) x0 (ix2 p s) = maxOver cBot (fun k' : Fin 2048 => x0 (ix3 p s k')) := by
  unfold val_main_v33
  refine (hostReduce_max_eq_maxOver x0 _ _ _ (ix2 p s) (fun k' : Fin 2048 => x0 (ix3 p s k')) ?_ ?_).trans rfl
  · exact fun q => ⟨ix3 p s q, drop_x _ p s q, rfl⟩
  · exact fun i hi => ⟨(i 2 : Fin 2048), congrArg x0 (drop_x_inv _ p s i hi).symm⟩

theorem v32_eq (x0 : (⟨S4x2048x2048, .f32⟩ : BufTy).Contents (Elt Ideal)) (p : Fin 4) (s : Fin 2048) (z : Fin 1) :
    val_main_v32 (F := Ideal) x0 (ix3 p s z) = rowLo (fun k' : Fin 2048 => x0 (ix3 p s k')) := by
  have e : idx_main_v30 (ix3 p s z) = ix2 p s := funext fun a => match a with | ⟨0, _⟩ => rfl | ⟨1, _⟩ => rfl
  rw [val_main_v32_apply, val_main_v30_apply, val_main_v31_apply, e, v29_eq]
  rfl

theorem v36_eq (x0 : (⟨S4x2048x2048, .f32⟩ : BufTy).Contents (Elt Ideal)) (p : Fin 4) (s : Fin 2048) (z : Fin 1) :
    val_main_v36 (F := Ideal) x0 (ix3 p s z) = rowHi (fun k' : Fin 2048 => x0 (ix3 p s k')) := by
  have e : idx_main_v34 (ix3 p s z) = ix2 p s := funext fun a => match a with | ⟨0, _⟩ => rfl | ⟨1, _⟩ => rfl
  rw [val_main_v36_apply, val_main_v34_apply, val_main_v35_apply, e, v33_eq]
  rfl

theorem v39_eq (x0 : (⟨S4x2048x2048, .f32⟩ : BufTy).Contents (Elt Ideal)) (p : Fin 4) (s : Fin 2048) (z : Fin 1) :
    val_main_v39 (F := Ideal) x0 (ix3 p s z) = rawStep (fun k' : Fin 2048 => x0 (ix3 p s k')) := by
  rw [val_main_v39_apply, val_main_v37_apply, val_main_v38_apply, v36_eq, v32_eq]
  rfl

theorem v42_eq (x0 : (⟨S4x2048x2048, .f32⟩ : BufTy).Contents (Elt Ideal)) (p : Fin 4) (s : Fin 2048) (z : Fin 1) :
    val_main_v42 (F := Ideal) x0 (ix3 p s z) = step (fun k' : Fin 2048 => x0 (ix3 p s k')) := by
  rw [val_main_v42_apply, val_main_v41_apply, val_main_v40_apply, val_main_call4_v1_apply, v39_eq]
  rfl

theorem v45_eq (x0 : (⟨S4x2048x2048, .f32⟩ : BufTy).Contents (Elt Ideal)) (p : Fin 4) (s : Fin 2048) (z : Fin 1) :
    val_main_v45 (F := Ideal) x0 (ix3 p s z) = zeroPt (fun k' : Fin 2048 => x0 (ix3 p s k')) := by
  rw [val_main_v45_apply, val_main_v44_apply, val_main_v43_apply, v42_eq, v32_eq]
  rfl

theorem v57_eq (x0 : (⟨S4x2048x2048, .f32⟩ : BufTy).Contents (Elt Ideal)) (p : Fin 4) (s : Fin 2048) (k : Fin 2048) :
    val_main_v57 (F := Ideal) x0 (ix3 p s k) = ste (fun k' : Fin 2048 => x0 (ix3 p s k')) k := by
  have e46 : idx_main_v46 (ix3 p s k) = ix3 p s (0 : Fin 1) :=
    funext fun a => match a with | ⟨0, _⟩ => rfl | ⟨1, _⟩ => rfl | ⟨2, _⟩ => rfl
  have e49 : idx_main_v49 (ix3 p s k) = ix3 p s (0 : Fin 1) :=
    funext fun a => match a with | ⟨0, _⟩ => rfl | ⟨1, _⟩ => rfl | ⟨2, _⟩ => rfl
  have e52 : idx_main_v52 (ix3 p s k) = ix3 p s (0 : Fin 1) :=
    funext fun a => match a with | ⟨0, _⟩ => rfl | ⟨1, _⟩ => rfl | ⟨2, _⟩ => rfl
  have e54 : idx_main_v54 (ix3 p s k) = ix3 p s (0 : Fin 1) :=
    funext fun a => match a with | ⟨0, _⟩ => rfl | ⟨1, _⟩ => rfl | ⟨2, _⟩ => rfl
  rw [val_main_v57_apply, val_main_v56_apply, val_main_v55_apply, val_main_v54_apply, val_main_v53_apply,
    val_main_v52_apply, val_main_v51_apply, val_main_call7_v4_apply, val_main_call7_v2_apply,
    val_main_call7_v1_apply, val_main_v50_apply, val_main_v49_apply, val_main_v48_apply, val_main_v47_apply,
    val_main_v46_apply, e46, e49, e52, e54, v42_eq, v45_eq]
  rfl

open Idealize.ShloMosaic Cert.ReferenceIdeal in
/-- The reference program's result is the specification's output array: each quantised row is read through
    its straight-through spelling, which is the quantised entry because the entries are real numbers. -/
theorem ref_eq (x0 : (⟨S4x2048x2048, .f32⟩ : BufTy).Contents (Elt Ideal)) (x1 : (⟨S8192x2048, .f32⟩ : BufTy).Contents (Elt Ideal)) (x2 : (⟨S8192, .f32⟩ : BufTy).Contents (Elt Ideal))
    (h0 : ∀ i, ∃ r : ℝ, x0 i = (r : EReal)) (h1 : ∀ i, ∃ r : ℝ, x1 i = (r : EReal)) :
    Cert.ReferenceIdeal.Read.val_main_v61 (F := Ideal) x0 x1 x2 = Cert.QuantSpec.outArr x0 x1 x2 := by
  funext i
  obtain ⟨p, s, o, rfl⟩ : ∃ (p : Fin 4) (s : Fin 2048) (o : Fin 8192), i = ix3 p s o := ⟨i 0, i 1, i 2, eq_ix3 i⟩
  have el : ∀ k : Fin 2048, lidx_main_v58 (ix3 p s o) k = ix3 p s k := fun k =>
    funext fun a => match a with | ⟨0, _⟩ => rfl | ⟨1, _⟩ => rfl | ⟨2, _⟩ => rfl
  have er : ∀ k : Fin 2048, ridx_main_v58 (ix3 p s o) k = ix2 o k := fun k =>
    funext fun a => match a with | ⟨0, _⟩ => rfl | ⟨1, _⟩ => rfl
  have eb : idx_main_v59 (idx_main_v60 (ix3 p s o)) = ix1 o := funext fun a => match a with | ⟨0, _⟩ => rfl
  rw [val_main_v61_apply, val_main_v58_apply, val_main_v60_apply, val_main_v59_apply, eb]
  show (∑ k : Fin 2048, _) + x2 (ix1 o) = out x0 x1 x2 p s o
  unfold out
  congr 1
  refine Finset.sum_congr rfl fun k _ => ?_
  obtain ⟨r0, hr0⟩ := h0 (ix3 p s k)
  obtain ⟨r1, hr1⟩ := h1 (ix2 o k)
  rw [el, er, v57_eq, v28_eq, ste_eq (fun k' : Fin 2048 => x0 (ix3 p s k')) k r0 hr0,
    ste_eq (fun k' : Fin 2048 => x1 (ix2 o k')) k r1 hr1]

end Cert.RefBridge

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.QuantBody.lean ====
/-
  The quantising kernel's body, read at an index.

  The body loads a block of 512 rows of 2048 numbers and stores, at row `p` and column `q`, the row's entry
  `q` quantised and read back.  The row's least and greatest entries come from reductions along the row started
  at `+∞` and `-∞`; cast to a column they give, row by row, the low end `loCol`, the high end `hiCol`, the step
  `stepCol` and the zero point `zpCol`; the step and zero-point columns are repeated along the row and everything
  else is entry by entry (`bodyOf`).  The stored entry is `QuantSpec.deq` of the row at `q`.  The body subtracts
  the row's low end from zero where the specification negates it: on the extended reals `0 - a = -a`.
-/
import proofs.«107538_j90357521973659_2_alg».proof.Proof.Gen.KernelIdeal.Skeleton
import proofs.«107538_j90357521973659_2_alg».proof.Proof.QuantSpec
import proofs.«107538_j90357521973659_2_alg».proof.Proof.LibRowBlocks

noncomputable section

namespace Cert.QuantBody

open Idealize.ShloMosaic Idealize.ShloMosaic.ValueIdx Cert.KernelIdeal Cert.KernelIdeal.Gen
open Cert.QuantSpec Cert.MinFold Cert.PoolFold Cert.RowBlocks

/-- The least of `+∞` and a row's entries: the reduction by minimum of an `[n, c]` array along its second axis. -/
theorem rowMin_apply {n c : ℕ} (src : FVec Ideal ⟨2, ![n, c]⟩ .f32)
    (h : (⟨2, ![n, c]⟩ : Shape).Reduces [1] ⟨1, ![n]⟩) (hφ : FKind.Formats .f32)
    (hacc : (0x7F800000#32 : BitVec 32) = 0x7F800000#32) (q : Fin n) :
    multiReduction .minimumf [1] ⟨1, ![n]⟩ src 0x7F800000#32 h hφ hacc (ix1 q)
      = minOver (Ideal.ofBits .f32 0x7F800000#32) (fun k : Fin c => src (ix2 q k)) := by
  refine (multiReduction_minimumf_eq_fold src 0x7F800000#32 h hφ hacc (ix1 q)).trans ?_
  refine (h.fold_filter_drop_single _ _ src (ix1 q)).trans ?_
  unfold minOver
  refine congrArg (fun g => (Finset.univ : Finset (Fin c)).fold min (Ideal.ofBits .f32 0x7F800000#32) g) (funext fun k => ?_)
  refine congrArg src (funext fun ax => Fin.ext ?_)
  match ax with
  | ⟨0, _⟩ => rfl
  | ⟨1, _⟩ => rfl

/-- Zero minus a number is its negative, on the extended reals. -/
theorem zero_word_sub (a : EReal) : Ideal.ofBits .f32 0x00000000#32 - a = -a := by
  rw [Ideal.ofBits_zero_f32, sub_eq_add_neg, zero_add]

/-! ## The columns: one number per row -/

/-- Each row's low end, as a column. -/
def loCol (v : FVec Ideal S512x2048 .f32) : FVec Ideal S512x1 .f32 :=
  minimumf (shapeCast S512x1 (multiReduction .minimumf [1] S512 v 0x7F800000#32 reduces_S512x2048_S512 (.inl rfl) rfl) shapeCasts_S512_S512x1)
    (broadcast S512x1 (Scalar.ofBits .f32 0x00000000#32))

/-- Each row's high end, as a column. -/
def hiCol (v : FVec Ideal S512x2048 .f32) : FVec Ideal S512x1 .f32 :=
  maximumf (shapeCast S512x1 (multiReduction .maximumf [1] S512 v 0xFF800000#32 reduces_S512x2048_S512 (.inl rfl) rfl) shapeCasts_S512_S512x1)
    (broadcast S512x1 (Scalar.ofBits .f32 0x00000000#32))

/-- Each row's fifteenth of the widened range. -/
def rawCol (v : FVec Ideal S512x2048 .f32) : FVec Ideal S512x1 .f32 :=
  divf (subf (hiCol v) (loCol v)) (broadcast S512x1 (Scalar.ofBits .f32 0x41700000#32))

/-- Each row's step. -/
def stepCol (v : FVec Ideal S512x2048 .f32) : FVec Ideal S512x1 .f32 :=
  select (cmpf .oeq (rawCol v) (broadcast S512x1 (Scalar.ofBits .f32 0x00000000#32)))
    (broadcast S512x1 (Scalar.ofBits .f32 0x3F800000#32)) (rawCol v)

/-- Each row's zero point. -/
def zpCol (v : FVec Ideal S512x2048 .f32) : FVec Ideal S512x1 .f32 :=
  roundeven (divf (subf (broadcast S512x1 (Scalar.ofBits .f32 0x00000000#32)) (loCol v)) (stepCol v))

/-- The stored block from the loaded block and the step and zero-point columns. -/
def bodyOf (v : FVec Ideal S512x2048 .f32) (st zp : FVec Ideal S512x1 .f32) : FVec Ideal S512x2048 .bf16 :=
  truncf .bf16
    (mulf (broadcastTo S512x2048 st broadcasts_S512x1_S512x2048)
      (subf
        (minimumf (broadcast S512x2048 (Scalar.ofBits .f32 0x41700000#32))
          (maximumf (broadcast S512x2048 (Scalar.ofBits .f32 0x00000000#32))
            (addf (roundeven (divf v (broadcastTo S512x2048 st broadcasts_S512x1_S512x2048)))
              (broadcastTo S512x2048 zp broadcasts_S512x1_S512x2048))))
        (broadcastTo S512x2048 zp broadcasts_S512x1_S512x2048)))
    bitsLt_bf16_f32

/-- The second quantising call's stored block is `bodyOf` of its loaded block and that block's columns. -/
theorem k1_pay1_eq (x : FVec Ideal S512x2048 .f32) : k1_pay1 (F := Ideal) x = bodyOf x (stepCol x) (zpCol x) := rfl

/-- The first call's likewise, its loaded block passing through a cast to its own shape. -/
theorem k0_pay1_eq (x : FVec Ideal S512x2048 .f32) :
    k0_pay1 (F := Ideal) x = bodyOf (shapeCast S512x2048 x shapeCasts_S512x2048_S512x2048)
      (stepCol (shapeCast S512x2048 x shapeCasts_S512x2048_S512x2048)) (zpCol (shapeCast S512x2048 x shapeCasts_S512x2048_S512x2048)) := rfl

/-! ## The columns at a row -/

/-- Rounding a vector is rounding each entry. -/
theorem roundeven_apply {s : Shape} (x : FVec Ideal s .f32) (i : s.Idx) :
    roundeven x i = Ideal.liftRound Ideal.roundHalfEven (x i) := rfl

theorem loCol_apply (v : FVec Ideal S512x2048 .f32) (p : Fin 512) (u : Fin 1) :
    loCol v (ix2 p u) = rowLo (fun k : Fin 2048 => v (ix2 p k)) := by
  unfold loCol
  rw [minimumf_apply, shapeCast_col_apply, broadcast_apply]
  simp only [Ideal.ofBits_def]
  exact congrArg (fun a => min a (Ideal.ofBits .f32 0x00000000#32)) (rowMin_apply v _ _ _ p)

theorem hiCol_apply (v : FVec Ideal S512x2048 .f32) (p : Fin 512) (u : Fin 1) :
    hiCol v (ix2 p u) = rowHi (fun k : Fin 2048 => v (ix2 p k)) := by
  unfold hiCol
  rw [maximumf_apply, shapeCast_col_apply, broadcast_apply]
  simp only [Ideal.ofBits_def]
  exact congrArg (fun a => max a (Ideal.ofBits .f32 0x00000000#32)) (rowMax_apply v _ _ _ p)

theorem rawCol_apply (v : FVec Ideal S512x2048 .f32) (p : Fin 512) (u : Fin 1) :
    rawCol v (ix2 p u) = rawStep (fun k : Fin 2048 => v (ix2 p k)) := by
  unfold rawCol
  rw [divf_apply, subf_apply, hiCol_apply, loCol_apply, broadcast_apply]
  simp only [Ideal.ofBits_def]
  unfold rawStep c15
  rfl

theorem stepCol_apply (v : FVec Ideal S512x2048 .f32) (p : Fin 512) (u : Fin 1) :
    stepCol v (ix2 p u) = step (fun k : Fin 2048 => v (ix2 p k)) := by
  unfold stepCol
  rw [select_apply, cmpf_apply, rawCol_apply]
  simp only [broadcast_apply, Ideal.cmpf_def, Ideal.ofBits_def]
  unfold step c0 c1
  rfl

theorem zpCol_apply (v : FVec Ideal S512x2048 .f32) (p : Fin 512) (u : Fin 1) :
    zpCol v (ix2 p u) = zeroPt (fun k : Fin 2048 => v (ix2 p k)) := by
  unfold zpCol
  rw [roundeven_apply, divf_apply, subf_apply, loCol_apply, stepCol_apply, broadcast_apply]
  simp only [Ideal.ofBits_def]
  rw [zero_word_sub]
  unfold zeroPt rnd
  rfl

/-! ## The stored block at an entry -/

theorem bodyOf_apply (v : FVec Ideal S512x2048 .f32) (st zp : FVec Ideal S512x1 .f32) (p : Fin 512) (q : Fin 2048) :
    bodyOf v st zp (ix2 p q)
      = st (ix2 p (0 : Fin 1)) * (min (Ideal.ofBits .f32 0x41700000#32) (max (Ideal.ofBits .f32 0x00000000#32)
          (Ideal.liftRound Ideal.roundHalfEven (Ideal.div (v (ix2 p q)) (st (ix2 p (0 : Fin 1)))) + zp (ix2 p (0 : Fin 1))))
        - zp (ix2 p (0 : Fin 1))) := by
  show broadcastTo S512x2048 st broadcasts_S512x1_S512x2048 (ix2 p q) * (min (Ideal.ofBits .f32 0x41700000#32) (max (Ideal.ofBits .f32 0x00000000#32)
          (Ideal.liftRound Ideal.roundHalfEven (Ideal.div (v (ix2 p q)) (broadcastTo S512x2048 st broadcasts_S512x1_S512x2048 (ix2 p q)))
            + broadcastTo S512x2048 zp broadcasts_S512x1_S512x2048 (ix2 p q)))
        - broadcastTo S512x2048 zp broadcasts_S512x1_S512x2048 (ix2 p q)) = _
  rw [broadcastTo_col_apply st, broadcastTo_col_apply zp]

/-- The stored block of the second quantising call, entry by entry. -/
theorem k1_pay1_apply (x : FVec Ideal S512x2048 .f32) (p : Fin 512) (q : Fin 2048) :
    k1_pay1 (F := Ideal) x (ix2 p q) = deq (fun k => x (ix2 p k)) q := by
  rw [k1_pay1_eq, bodyOf_apply, stepCol_apply, zpCol_apply]
  unfold deq rnd c15 c0
  rfl

/-- The stored block of the first quantising call, entry by entry. -/
theorem k0_pay1_apply (x : FVec Ideal S512x2048 .f32) (p : Fin 512) (q : Fin 2048) :
    k0_pay1 (F := Ideal) x (ix2 p q) = deq (fun k => x (ix2 p k)) q := by
  rw [k0_pay1_eq, shapeCast_self, bodyOf_apply, stepCol_apply, zpCol_apply]
  unfold deq rnd c15 c0
  rfl

end Cert.QuantBody

end
-- ==== Proof.Region01.lean ====
/-
  The two quantising calls, from blocks to arrays.

  Each call walks sixteen blocks of 512 rows down an `[8192, 2048]` array.  At a block it stores, at row `a` and
  column `b` of the block, entry `b` of the block's row `a` quantised to four bits and read back.  Row `a` of block
  `t` is row `512·t + a` of the array, and a block spans whole rows, so what a block holds is the restriction to
  the block of ONE function of the input array: every row quantised and read back.  Every row `r` lies in block
  `r / 512`, so the blocks cover the array and the output array ends holding that function.
-/
import proofs.«107538_j90357521973659_2_alg».proof.Proof.Gen.KernelIdeal.Frame
import proofs.«107538_j90357521973659_2_alg».proof.Proof.QuantSpec
import proofs.«107538_j90357521973659_2_alg».proof.Proof.QuantBody
import Idealize.ShloMosaic.Lib.Pipeline.Value

noncomputable section

namespace Cert.Region01

open Idealize.ShloMosaic Idealize.ShloMosaic.TcCoe Idealize.ShloMosaic.ValueIdx Cert.KernelIdeal Cert.KernelIdeal.Gen
open Idealize.ShloMosaic.Pipeline (Dat)

/-- The block offsets of a whole-block access are zero on both axes. -/
theorem zero_offsets : (![0, 0] : Fin 2 → Nat) = fun _ => 0 := funext fun a => by fin_cases a <;> rfl

/-- Every row of an `[8192, 2048]` array quantised to four bits and read back. -/
abbrev rowQuant (A : S8192x2048.Idx → EReal) : S8192x2048.Idx → EReal :=
  fun i => Cert.QuantSpec.deq (fun k : Fin 2048 => A (ix2 (i 0) k)) (i 1)

/-- At row `r`, column `b`. -/
theorem rowQuant_ix2 (A : S8192x2048.Idx → EReal) (r : Fin 8192) (b : Fin 2048) :
    rowQuant A (ix2 r b) = Cert.QuantSpec.deq (fun k : Fin 2048 => A (ix2 r k)) b := rfl

/-! ## The activation rows: pallas call 0 -/

/-- The block index maps, decided over the grid: the input block moves with the output block along the rows,
    neither moves along the columns, and there are sixteen row blocks. -/
theorem idx_facts0 : ∀ t : Fin cfg0.N, win0_0.index t (0 : Fin 2) = win0_1.index t (0 : Fin 2)
    ∧ win0_0.index t (1 : Fin 2) = 0 ∧ win0_1.index t (1 : Fin 2) = 0 ∧ win0_1.index t (0 : Fin 2) ≤ 15 :=
  (by decide +kernel : ∀ t : Fin grid0.N, _)

/-- Every row block is some point's. -/
theorem idx_onto0 : ∀ q0 : Fin 16, ∃ t : Fin cfg0.N, win0_1.index t = ![q0.val, 0] :=
  (by decide +kernel : ∀ q0 : Fin 16, ∃ t : Fin grid0.N, win0_1.index t = ![q0.val, 0])

/-- What point `t` writes back is its block of the row-quantised array. -/
theorem flushed0_eq (V : (c : Dev nD) → (b : Ref sig .tc) → Buf (Elt Ideal) ((c : Thread nD τ).loc b)) (c : Dev nD)
    (t : Fin cfg0.N) :
    (dat0 (F := Ideal) V c).flushed 1 t = ((cfg0.win 1).blk t).view.read (Elt Ideal) (rowQuant (V c main_v0)) := by
  show (cfg0.win 1).cut (grid0.coords t) ((dat0 V c).after 1 t) = _
  rw [after0_1]
  unfold out0_1
  rw [View.canon_unit_zero zero_offsets]
  simp only [View.ld_unit_zero (S := S512x2048) zero_offsets]
  obtain ⟨e0, e1, e2, e3⟩ := idx_facts0 t
  funext j
  obtain ⟨a, b, rfl⟩ : ∃ (a : Fin 512) (b : Fin 2048), j = ix2 a b := ⟨j 0, j 1, eq_ix2 j⟩
  have ha : a.val < 512 := a.isLt
  have hr : win0_1.index t (0 : Fin 2) * 512 + a.val < 8192 := by omega
  have hin : ∀ k : Fin 2048, ((cfg0.win 0).blk t).view.emb (ix2 a k)
      = ix2 (⟨win0_1.index t (0 : Fin 2) * 512 + a.val, hr⟩ : Fin 8192) k := fun k => by
    funext ax; apply Fin.ext
    match ax with
    | ⟨0, _⟩ => show win0_0.index t (0 : Fin 2) * 512 + 1 * a.val = win0_1.index t (0 : Fin 2) * 512 + a.val; omega
    | ⟨1, _⟩ => show win0_0.index t (1 : Fin 2) * 2048 + 1 * k.val = k.val; omega
  have hout : ((cfg0.win 1).blk t).view.emb (ix2 a b)
      = ix2 (⟨win0_1.index t (0 : Fin 2) * 512 + a.val, hr⟩ : Fin 8192) b := by
    funext ax; apply Fin.ext
    match ax with
    | ⟨0, _⟩ => show win0_1.index t (0 : Fin 2) * 512 + 1 * a.val = win0_1.index t (0 : Fin 2) * 512 + a.val; omega
    | ⟨1, _⟩ => show win0_1.index t (1 : Fin 2) * 2048 + 1 * b.val = b.val; omega
  have erow : (fun k : Fin 2048 => iblk0 V c 0 t (ix2 a k))
      = fun k : Fin 2048 => V c main_v0 (ix2 (⟨win0_1.index t (0 : Fin 2) * 512 + a.val, hr⟩ : Fin 8192) k) :=
    funext fun k => by
      show V c main_v0 (((cfg0.win 0).blk t).view.emb (ix2 a k)) = _
      rw [hin k]
  show k0_pay1 (F := Ideal) (iblk0 V c 0 t) (ix2 a b) = rowQuant (V c main_v0) (((cfg0.win 1).blk t).view.emb (ix2 a b))
  refine (Cert.QuantBody.k0_pay1_apply (iblk0 V c 0 t) a b).trans ?_
  rw [erow, hout, rowQuant_ix2]

/-- An index of the array is in point `t`'s block iff each coordinate is in the block's range on its axis. -/
theorem mem_blk0 (t : Fin cfg0.N) (i : S8192x2048.Idx) :
    i ∈ ((cfg0.win 1).blk t).view.set ↔ ∀ a : Fin 2, win0_1.index t a * S512x2048.size a ≤ (i a).val
      ∧ (i a).val < win0_1.index t a * S512x2048.size a + S512x2048.size a := by
  show i ∈ ((View.whole main_v2).slice (win0_1.rect t)).set ↔ _
  rw [View.set_slice_whole, Rect.mem_set_unit]
  exact Iff.rfl

/-- Every index of the array is in some point's block: row `r` is in row block `r / 512`. -/
theorem cover0 (i : S8192x2048.Idx) :
    ∃ t : Fin cfg0.N, (cfg0.win 1).flush t = true ∧ i ∈ ((cfg0.win 1).blk t).view.set := by
  have hi0 : (i 0).val < 8192 := (i 0).isLt
  have hi1 : (i 1).val < 2048 := (i 1).isLt
  obtain ⟨t, ht⟩ := idx_onto0 ⟨(i 0).val / 512, by omega⟩
  have q0 : win0_1.index t (0 : Fin 2) = (i 0).val / 512 := congrFun ht 0
  have q1 : win0_1.index t (1 : Fin 2) = 0 := congrFun ht 1
  refine ⟨t, flush0_1 t, ?_⟩
  rw [mem_blk0]
  intro a
  match a with
  | ⟨0, _⟩ => show win0_1.index t (0 : Fin 2) * 512 ≤ (i 0).val ∧ (i 0).val < win0_1.index t (0 : Fin 2) * 512 + 512; omega
  | ⟨1, _⟩ => show win0_1.index t (1 : Fin 2) * 2048 ≤ (i 1).val ∧ (i 1).val < win0_1.index t (1 : Fin 2) * 2048 + 2048; omega

/-- The output array after the call: every row of the input array quantised and read back. -/
theorem region0_arr (V : (c : Dev nD) → (b : Ref sig .tc) → Buf (Elt Ideal) ((c : Thread nD τ).loc b)) (c : Dev nD) :
    (dat0 (F := Ideal) V c).arrAt 1 cfg0.N
      = (fun i : S8192x2048.Idx => Cert.QuantSpec.deq (fun k : Fin 2048 => V c main_v0 (ix2 (i 0) k)) (i 1)) :=
  (dat0 (F := Ideal) V c).arrAt_eq_of_cover 1 (rowQuant (V c main_v0)) (fun t _ => flushed0_eq V c t) cover0

/-! ## The weight rows: pallas call 1 -/

/-- The block index maps, decided over the grid: the input block moves with the output block along the rows,
    neither moves along the columns, and there are sixteen row blocks. -/
theorem idx_facts1 : ∀ t : Fin cfg1.N, win1_0.index t (0 : Fin 2) = win1_1.index t (0 : Fin 2)
    ∧ win1_0.index t (1 : Fin 2) = 0 ∧ win1_1.index t (1 : Fin 2) = 0 ∧ win1_1.index t (0 : Fin 2) ≤ 15 :=
  (by decide +kernel : ∀ t : Fin grid1.N, _)

/-- Every row block is some point's. -/
theorem idx_onto1 : ∀ q0 : Fin 16, ∃ t : Fin cfg1.N, win1_1.index t = ![q0.val, 0] :=
  (by decide +kernel : ∀ q0 : Fin 16, ∃ t : Fin grid1.N, win1_1.index t = ![q0.val, 0])

/-- What point `t` writes back is its block of the row-quantised array. -/
theorem flushed1_eq (V : (c : Dev nD) → (b : Ref sig .tc) → Buf (Elt Ideal) ((c : Thread nD τ).loc b)) (c : Dev nD)
    (t : Fin cfg1.N) :
    (dat1 (F := Ideal) V c).flushed 1 t = ((cfg1.win 1).blk t).view.read (Elt Ideal) (rowQuant (V c main_arg1)) := by
  show (cfg1.win 1).cut (grid1.coords t) ((dat1 V c).after 1 t) = _
  rw [after1_1]
  unfold out1_1
  rw [View.canon_unit_zero zero_offsets]
  simp only [View.ld_unit_zero (S := S512x2048) zero_offsets]
  obtain ⟨e0, e1, e2, e3⟩ := idx_facts1 t
  funext j
  obtain ⟨a, b, rfl⟩ : ∃ (a : Fin 512) (b : Fin 2048), j = ix2 a b := ⟨j 0, j 1, eq_ix2 j⟩
  have ha : a.val < 512 := a.isLt
  have hr : win1_1.index t (0 : Fin 2) * 512 + a.val < 8192 := by omega
  have hin : ∀ k : Fin 2048, ((cfg1.win 0).blk t).view.emb (ix2 a k)
      = ix2 (⟨win1_1.index t (0 : Fin 2) * 512 + a.val, hr⟩ : Fin 8192) k := fun k => by
    funext ax; apply Fin.ext
    match ax with
    | ⟨0, _⟩ => show win1_0.index t (0 : Fin 2) * 512 + 1 * a.val = win1_1.index t (0 : Fin 2) * 512 + a.val; omega
    | ⟨1, _⟩ => show win1_0.index t (1 : Fin 2) * 2048 + 1 * k.val = k.val; omega
  have hout : ((cfg1.win 1).blk t).view.emb (ix2 a b)
      = ix2 (⟨win1_1.index t (0 : Fin 2) * 512 + a.val, hr⟩ : Fin 8192) b := by
    funext ax; apply Fin.ext
    match ax with
    | ⟨0, _⟩ => show win1_1.index t (0 : Fin 2) * 512 + 1 * a.val = win1_1.index t (0 : Fin 2) * 512 + a.val; omega
    | ⟨1, _⟩ => show win1_1.index t (1 : Fin 2) * 2048 + 1 * b.val = b.val; omega
  have erow : (fun k : Fin 2048 => iblk1 V c 0 t (ix2 a k))
      = fun k : Fin 2048 => V c main_arg1 (ix2 (⟨win1_1.index t (0 : Fin 2) * 512 + a.val, hr⟩ : Fin 8192) k) :=
    funext fun k => by
      show V c main_arg1 (((cfg1.win 0).blk t).view.emb (ix2 a k)) = _
      rw [hin k]
  show k1_pay1 (F := Ideal) (iblk1 V c 0 t) (ix2 a b) = rowQuant (V c main_arg1) (((cfg1.win 1).blk t).view.emb (ix2 a b))
  refine (Cert.QuantBody.k1_pay1_apply (iblk1 V c 0 t) a b).trans ?_
  rw [erow, hout, rowQuant_ix2]

/-- An index of the array is in point `t`'s block iff each coordinate is in the block's range on its axis. -/
theorem mem_blk1 (t : Fin cfg1.N) (i : S8192x2048.Idx) :
    i ∈ ((cfg1.win 1).blk t).view.set ↔ ∀ a : Fin 2, win1_1.index t a * S512x2048.size a ≤ (i a).val
      ∧ (i a).val < win1_1.index t a * S512x2048.size a + S512x2048.size a := by
  show i ∈ ((View.whole main_v3).slice (win1_1.rect t)).set ↔ _
  rw [View.set_slice_whole, Rect.mem_set_unit]
  exact Iff.rfl

/-- Every index of the array is in some point's block: row `r` is in row block `r / 512`. -/
theorem cover1 (i : S8192x2048.Idx) :
    ∃ t : Fin cfg1.N, (cfg1.win 1).flush t = true ∧ i ∈ ((cfg1.win 1).blk t).view.set := by
  have hi0 : (i 0).val < 8192 := (i 0).isLt
  have hi1 : (i 1).val < 2048 := (i 1).isLt
  obtain ⟨t, ht⟩ := idx_onto1 ⟨(i 0).val / 512, by omega⟩
  have q0 : win1_1.index t (0 : Fin 2) = (i 0).val / 512 := congrFun ht 0
  have q1 : win1_1.index t (1 : Fin 2) = 0 := congrFun ht 1
  refine ⟨t, flush1_1 t, ?_⟩
  rw [mem_blk1]
  intro a
  match a with
  | ⟨0, _⟩ => show win1_1.index t (0 : Fin 2) * 512 ≤ (i 0).val ∧ (i 0).val < win1_1.index t (0 : Fin 2) * 512 + 512; omega
  | ⟨1, _⟩ => show win1_1.index t (1 : Fin 2) * 2048 ≤ (i 1).val ∧ (i 1).val < win1_1.index t (1 : Fin 2) * 2048 + 2048; omega

/-- The output array after the call: every row of the input array quantised and read back. -/
theorem region1_arr (V : (c : Dev nD) → (b : Ref sig .tc) → Buf (Elt Ideal) ((c : Thread nD τ).loc b)) (c : Dev nD) :
    (dat1 (F := Ideal) V c).arrAt 1 cfg1.N
      = (fun i : S8192x2048.Idx => Cert.QuantSpec.deq (fun k : Fin 2048 => V c main_arg1 (ix2 (i 0) k)) (i 1)) :=
  (dat1 (F := Ideal) V c).arrAt_eq_of_cover 1 (rowQuant (V c main_arg1)) (fun t _ => flushed1_eq V c t) cover1

end Cert.Region01

end
-- ==== Proof.LibQuantBlock.lean ====
/-
  A quantised weight block, read at an index.

  A matrix of `r` rows and `g · c` columns is stored as integers with one scale per row and per group of `c`
  consecutive columns.  Dequantising it is: read the integers signed, view the `[r, g · c]` array as `[r, g, c]`,
  view the `[r, g]` scales as `[r, g, 1]` and repeat each along the lane axis to `[r, g, c]`, multiply entry by
  entry, and view the product as `[r, g · c]` again.  Entry `(p, k)` of the result is the integer at `(p, k)`
  times the scale at `(p, k / c)`.  The scales may also arrive transposed, `[g, r]`.

  The layout steps are stated one by one at any extents (the two views between `[r, n]` and `[r, g, c]` with
  `n = g · c`: column `k = a · c + l` is lane `l` of group `a`; the trailing unit axis; the lane broadcast), then
  the whole term on the extended reals, with the scales as given or transposed, in the vector unit's spelling.
  A product `l · rᵀ` (second axes contracted) into a zero accumulator reads at `(q, d)` the sum over `p` of
  `l (q, p) · r (d, p)`, whatever the operands' float formats.
-/
import Idealize.ShloMosaic.PureOps.Ideal.Laws
import Idealize.ShloMosaic.Lib.ValueIdx
import Idealize.ShloMosaic.Lib.ValueLayout
import Idealize.ShloMosaic.Lib.Pipeline.Value
import proofs.«107538_j90357521973659_2_alg».proof.Proof.LibRowBlocks

noncomputable section

open scoped BigOperators

namespace Cert.QuantBlock

open Idealize.ShloMosaic Idealize.ShloMosaic.ValueIdx

variable {α : Type}

/-- `[r, n]` viewed `[r, g, c]` (`n = g · c`): entry `(q, a, l)` is column `k = a · c + l` of row `q`. -/
theorem shapeCast_splitCols_apply {r g c n : ℕ} (x : (⟨2, ![r, n]⟩ : Shape).Idx → α)
    (h : (⟨2, ![r, n]⟩ : Shape).ShapeCasts ⟨3, ![r, g, c]⟩) (q : Fin r) (a : Fin g) (l : Fin c) (k : Fin n)
    (hn : n = g * c) (hk : k.val = a.val * c + l.val) : shapeCast ⟨3, ![r, g, c]⟩ x h (ix3 q a l) = x (ix2 q k) :=
  shapeCast_apply x h _ _ (by
    rw [Shape.rowMajor_val_three, Shape.rowMajor_val_two]
    show q.val * n + k.val = (q.val * g + a.val) * c + l.val
    rw [hk, hn]; ring)

/-- `[r, g, c]` viewed `[r, n]` (`n = g · c`): column `k = a · c + l` of row `q` is entry `(q, a, l)`. -/
theorem shapeCast_mergeCols_apply {r g c n : ℕ} (x : (⟨3, ![r, g, c]⟩ : Shape).Idx → α)
    (h : (⟨3, ![r, g, c]⟩ : Shape).ShapeCasts ⟨2, ![r, n]⟩) (q : Fin r) (a : Fin g) (l : Fin c) (k : Fin n)
    (hn : n = g * c) (hk : k.val = a.val * c + l.val) : shapeCast ⟨2, ![r, n]⟩ x h (ix2 q k) = x (ix3 q a l) :=
  shapeCast_apply x h _ _ (by
    rw [Shape.rowMajor_val_three, Shape.rowMajor_val_two]
    show (q.val * g + a.val) * c + l.val = q.val * n + k.val
    rw [hk, hn]; ring)

/-- `[r, g]` viewed `[r, g, 1]`. -/
theorem shapeCast_unitLane_apply {r g : ℕ} (x : (⟨2, ![r, g]⟩ : Shape).Idx → α)
    (h : (⟨2, ![r, g]⟩ : Shape).ShapeCasts ⟨3, ![r, g, 1]⟩) (q : Fin r) (a : Fin g) (u : Fin 1) :
    shapeCast ⟨3, ![r, g, 1]⟩ x h (ix3 q a u) = x (ix2 q a) :=
  shapeCast_apply x h _ _ (by
    have hu : u.val = 0 := by omega
    rw [Shape.rowMajor_val_three, Shape.rowMajor_val_two]
    show q.val * g + a.val = (q.val * g + a.val) * 1 + u.val
    rw [hu]; ring)

/-- `[r, g, 1]` repeated along the lane axis to `[r, g, c]`. -/
theorem broadcastTo_lane_apply {r g c : ℕ} (x : (⟨3, ![r, g, 1]⟩ : Shape).Idx → α)
    (h : (⟨3, ![r, g, 1]⟩ : Shape).Broadcasts ⟨3, ![r, g, c]⟩) (q : Fin r) (a : Fin g) (l : Fin c) :
    broadcastTo ⟨3, ![r, g, c]⟩ x h (ix3 q a l) = x (ix3 q a (0 : Fin 1)) := by
  refine broadcastTo_apply x h (ix3 q a l) (ix3 q a (0 : Fin 1)) fun ax => ?_
  match ax with
  | ⟨0, _⟩ =>
    show q.val = if r = 1 then 0 else q.val
    split
    · have := q.isLt; omega
    · rfl
  | ⟨1, _⟩ =>
    show a.val = if g = 1 then 0 else a.val
    split
    · have := a.isLt; omega
    · rfl
  | ⟨2, _⟩ =>
    show (0 : ℕ) = if (1 : ℕ) = 1 then 0 else l.val
    rw [if_pos rfl]

/-- The group of a column. -/
abbrev grp {g c : ℕ} (k : Fin (g * c)) : Fin g :=
  ⟨k.val / c, Nat.div_lt_of_lt_mul (lt_of_lt_of_eq k.isLt (Nat.mul_comm g c))⟩

/-- THE DEQUANTISED BLOCK on the extended reals: the integer, read signed, times its row's and group's scale. -/
theorem dequant_apply {r g c : ℕ} (hc : 0 < c) (qw : IVec (⟨2, ![r, g * c]⟩ : Shape) 32) (s : FVec Ideal ⟨2, ![r, g]⟩ .f32)
    (h1 : (⟨2, ![r, g * c]⟩ : Shape).ShapeCasts ⟨3, ![r, g, c]⟩) (h2 : (⟨2, ![r, g]⟩ : Shape).ShapeCasts ⟨3, ![r, g, 1]⟩)
    (h3 : (⟨3, ![r, g, 1]⟩ : Shape).Broadcasts ⟨3, ![r, g, c]⟩) (h4 : (⟨3, ![r, g, c]⟩ : Shape).ShapeCasts ⟨2, ![r, g * c]⟩)
    (p : Fin r) (k : Fin (g * c)) :
    shapeCast ⟨2, ![r, g * c]⟩ (mulf (F := Ideal) (φ := .f32) (shapeCast ⟨3, ![r, g, c]⟩ (sitofp (F := Ideal) .f32 qw) h1)
      (broadcastTo ⟨3, ![r, g, c]⟩ (shapeCast ⟨3, ![r, g, 1]⟩ s h2) h3)) h4 (ix2 p k)
      = (((qw (ix2 p k)).toInt : ℝ) : EReal) * s (ix2 p (grp k)) := by
  have hk : k.val = (grp k).val * c + (⟨k.val % c, Nat.mod_lt _ hc⟩ : Fin c).val := (Nat.div_add_mod' k.val c).symm
  rw [shapeCast_mergeCols_apply _ h4 p (grp k) ⟨k.val % c, Nat.mod_lt _ hc⟩ k rfl hk]
  show FloatOps.mulf (shapeCast ⟨3, ![r, g, c]⟩ (sitofp (F := Ideal) .f32 qw) h1 (ix3 p (grp k) ⟨k.val % c, Nat.mod_lt _ hc⟩))
      (broadcastTo ⟨3, ![r, g, c]⟩ (shapeCast ⟨3, ![r, g, 1]⟩ s h2) h3 (ix3 p (grp k) ⟨k.val % c, Nat.mod_lt _ hc⟩)) = _
  rw [shapeCast_splitCols_apply _ h1 p (grp k) ⟨k.val % c, Nat.mod_lt _ hc⟩ k rfl hk, broadcastTo_lane_apply,
    shapeCast_unitLane_apply]
  rfl

/-- The same with the scales arriving transposed, `[g, r]`: the scale of row `p` and group `a` is entry `(a, p)`. -/
theorem dequantT_apply {r g c : ℕ} (hc : 0 < c) (qw : IVec (⟨2, ![r, g * c]⟩ : Shape) 32) (st : FVec Ideal ⟨2, ![g, r]⟩ .f32)
    (ht : (⟨2, ![g, r]⟩ : Shape).Transposes [1, 0] ⟨2, ![r, g]⟩)
    (h1 : (⟨2, ![r, g * c]⟩ : Shape).ShapeCasts ⟨3, ![r, g, c]⟩) (h2 : (⟨2, ![r, g]⟩ : Shape).ShapeCasts ⟨3, ![r, g, 1]⟩)
    (h3 : (⟨3, ![r, g, 1]⟩ : Shape).Broadcasts ⟨3, ![r, g, c]⟩) (h4 : (⟨3, ![r, g, c]⟩ : Shape).ShapeCasts ⟨2, ![r, g * c]⟩)
    (p : Fin r) (k : Fin (g * c)) :
    shapeCast ⟨2, ![r, g * c]⟩ (mulf (F := Ideal) (φ := .f32) (shapeCast ⟨3, ![r, g, c]⟩ (sitofp (F := Ideal) .f32 qw) h1)
      (broadcastTo ⟨3, ![r, g, c]⟩ (shapeCast ⟨3, ![r, g, 1]⟩ (transpose ⟨2, ![r, g]⟩ [1, 0] st ht) h2) h3)) h4 (ix2 p k)
      = (((qw (ix2 p k)).toInt : ℝ) : EReal) * st (ix2 (grp k) p) := by
  rw [dequant_apply hc qw (transpose ⟨2, ![r, g]⟩ [1, 0] st ht) h1 h2 h3 h4 p k, transpose_ix2_apply]

/-- `l · rᵀ` into a zero accumulator, whatever the operands' formats: at `(q, d)` the sum over `p` of `l (q, p) · r (d, p)`. -/
theorem matmul_abT_apply {M K N : ℕ} {φ₁ φ₂ : FTy} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ φ₁) (r : FVec Ideal ⟨2, ![N, K]⟩ φ₂)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (Cert.RowBlocks.abT_sum D h1 h2 h3 h4 h5 h6 l r q d)

end Cert.QuantBlock

end
-- ==== Proof.MatmulBody.lean ====
/-
  The matmul kernel's body, read at an index.

  The body takes a `[1024, 2048]` activation block `x`, a `[1024, 2048]` weight block `w` and a `[1, 1024]` bias
  row `b`.  It contracts the second axis of `x` with the second axis of `w` into a zero accumulator, repeats the
  bias row down the 1024 rows and adds.  The shape casts in it are to the shape the operand already has, so they
  are identities.  At `(p, q)` the result is `∑ k, x (p, k) · w (q, k) + b (0, q)`.
-/
import proofs.«107538_j90357521973659_2_alg».proof.Proof.Gen.KernelIdeal.Skeleton
import proofs.«107538_j90357521973659_2_alg».proof.Proof.LibQuantBlock
import Idealize.ShloMosaic.Lib.ValueLayout

noncomputable section

open scoped BigOperators

namespace Cert.MatmulBody

open Idealize.ShloMosaic Idealize.ShloMosaic.ValueIdx Cert.KernelIdeal Cert.KernelIdeal.Gen

/-- The body's value at row `p`, column `q`: the inner product of row `p` of the activation block with row `q` of
    the weight block, plus entry `q` of the bias row. -/
theorem k2_pay1_apply (x0 x1 : FVec Ideal S1024x2048 .bf16) (x2 : FVec Ideal S1x1024 .f32) (p q : Fin 1024) :
    k2_pay1 (F := Ideal) x0 x1 x2 (ix2 p q)
      = (∑ k : Fin 2048, x0 (ix2 p k) * x1 (ix2 q k)) + x2 (ix2 (0 : Fin 1) q) := by
  unfold k2_pay1
  simp only [shapeCast_self]
  show FloatOps.addf (matmul _ none x0 x1 (constant S1024x1024 .f32 0x00000000#32) (ix2 p q))
      (broadcastTo S1024x1024 x2 _ (ix2 p q)) = _
  rw [Ideal.addf_def]
  refine congrArg₂ (· + ·) ?_ ?_
  · exact Cert.QuantBlock.matmul_abT_apply _ rfl rfl rfl rfl rfl rfl none x0 x1 p q
  · exact broadcastTo_1b_ab_apply x2 _ p q

end Cert.MatmulBody

end
-- ==== Proof.Region2.lean ====
/-
  The matmul region's output array, index by index.

  The region runs its body over an 8 × 8 grid.  At grid point `(u, v)` the body reads rows `1024 u … 1024 u + 1023`
  of the quantised activations (an `[8192, 2048]` array), rows `1024 v … 1024 v + 1023` of the quantised weights (an
  `[8192, 2048]` array) and columns `1024 v … 1024 v + 1023` of the bias row (a `[1, 8192]` array), and writes block
  `(u, v)` of the `[8192, 8192]` output.  The body's value at `(a, b)` inside the block is the inner product of row
  `a` of its activation block with row `b` of its weight block plus entry `b` of its bias block; a block's entry
  `(a, k)` is the array's entry `(1024 · block index + a, k)`, so that value is the inner product of activation row
  `1024 u + a` with weight row `1024 v + b` plus bias entry `1024 v + b`: entry `(1024 u + a, 1024 v + b)` of one
  function of the three arrays, the same for every grid point.  The 64 blocks tile the output (block `(i₀ / 1024,
  i₁ / 1024)` holds index `i`), so the output array ends as that function everywhere.
-/
import proofs.«107538_j90357521973659_2_alg».proof.Proof.Gen.KernelIdeal.Frame
import proofs.«107538_j90357521973659_2_alg».proof.Proof.MatmulBody
import Idealize.ShloMosaic.Lib.Pipeline.Value

set_option maxRecDepth 16384

noncomputable section

open scoped BigOperators

namespace Cert.Region2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- Zero offsets, as a constant function. -/
theorem hz : (![0, 0] : Fin 2 → Nat) = fun _ => 0 := funext fun a => by fin_cases a <;> rfl

/-- The array the region leaves, from the activations `a2`, the weights `a3` and the bias row `a1`: at `(i₀, i₁)` the
    inner product of activation row `i₀` with weight row `i₁`, plus bias entry `i₁`. -/
abbrev layerArr (a2 a3 : FVec Ideal S8192x2048 .bf16) (a1 : FVec Ideal S1x8192 .f32) : FVec Ideal S8192x8192 .f32 :=
  fun i => (∑ k : Fin 2048, a2 (ix2 (i 0) k) * a3 (ix2 (i 1) k)) + a1 (ix2 (0 : Fin 1) (i 1))

/-- The block indices over the grid: the activation block follows the output's row block, the weight and bias blocks
    follow the output's column block, each at column block (resp. row block) zero, and the output's block indices
    stay below 8. -/
theorem idx_facts : ∀ t : Fin cfg2.N, win2_0.index t (0 : Fin 2) = win2_3.index t (0 : Fin 2)
    ∧ win2_0.index t (1 : Fin 2) = 0
    ∧ win2_1.index t (0 : Fin 2) = win2_3.index t (1 : Fin 2)
    ∧ win2_1.index t (1 : Fin 2) = 0
    ∧ win2_2.index t (0 : Fin 2) = 0
    ∧ win2_2.index t (1 : Fin 2) = win2_3.index t (1 : Fin 2)
    ∧ win2_3.index t (0 : Fin 2) ≤ 7
    ∧ win2_3.index t (1 : Fin 2) ≤ 7 :=
  (by decide +kernel : ∀ t : Fin grid2.N, _)

/-- Every one of the 8 × 8 output blocks is some grid point's. -/
theorem idx_onto : ∀ (q0 q1 : Fin 8), ∃ t : Fin cfg2.N, win2_3.index t = ![q0.val, q1.val] :=
  (by decide +kernel : ∀ (q0 q1 : Fin 8), ∃ t : Fin grid2.N, win2_3.index t = ![q0.val, q1.val])

/-- At a grid point, the body's formula over the three input blocks, at `(a, b)` inside the output block, is
    `layerArr` at the array index that `(a, b)` stands for: each block coordinate is block index × block extent + the
    coordinate inside the block, and the block indices agree as `idx_facts` says. -/
theorem point_eq (A2 A3 : FVec Ideal S8192x2048 .bf16) (A1 : FVec Ideal S1x8192 .f32) (t : Fin cfg2.N) (a b : Fin 1024) :
    (∑ k : Fin 2048, A2 (((cfg2.win 0).blk t).view.emb (ix2 a k)) * A3 (((cfg2.win 1).blk t).view.emb (ix2 b k)))
      + A1 (((cfg2.win 2).blk t).view.emb (ix2 (0 : Fin 1) b))
    = layerArr A2 A3 A1 (((cfg2.win 3).blk t).view.emb (ix2 a b)) := by
  obtain ⟨e0, e1, e2, e3, e4, e5, e6, e7⟩ := idx_facts t
  have ha : a.val < 1024 := a.isLt
  have hb : b.val < 1024 := b.isLt
  have h0 : ∀ k : Fin 2048, (((cfg2.win 0).blk t).view.emb (ix2 a k) : S8192x2048.Idx)
      = ix2 ((((cfg2.win 3).blk t).view.emb (ix2 a b) : S8192x8192.Idx) 0) k := by
    intro k; funext ax; apply Fin.ext
    have hk : k.val < 2048 := k.isLt
    match ax with
    | ⟨0, _⟩ => show win2_0.index t (0 : Fin 2) * 1024 + 1 * a.val = win2_3.index t (0 : Fin 2) * 1024 + 1 * a.val; omega
    | ⟨1, _⟩ => show win2_0.index t (1 : Fin 2) * 2048 + 1 * k.val = k.val; omega
  have h1 : ∀ k : Fin 2048, (((cfg2.win 1).blk t).view.emb (ix2 b k) : S8192x2048.Idx)
      = ix2 ((((cfg2.win 3).blk t).view.emb (ix2 a b) : S8192x8192.Idx) 1) k := by
    intro k; funext ax; apply Fin.ext
    have hk : k.val < 2048 := k.isLt
    match ax with
    | ⟨0, _⟩ => show win2_1.index t (0 : Fin 2) * 1024 + 1 * b.val = win2_3.index t (1 : Fin 2) * 1024 + 1 * b.val; omega
    | ⟨1, _⟩ => show win2_1.index t (1 : Fin 2) * 2048 + 1 * k.val = k.val; omega
  have h2 : (((cfg2.win 2).blk t).view.emb (ix2 (0 : Fin 1) b) : S1x8192.Idx)
      = ix2 (0 : Fin 1) ((((cfg2.win 3).blk t).view.emb (ix2 a b) : S8192x8192.Idx) 1) := by
    funext ax; apply Fin.ext
    match ax with
    | ⟨0, _⟩ => show win2_2.index t (0 : Fin 2) * 1 + 1 * 0 = 0; omega
    | ⟨1, _⟩ => show win2_2.index t (1 : Fin 2) * 1024 + 1 * b.val = win2_3.index t (1 : Fin 2) * 1024 + 1 * b.val; omega
  rw [h2]
  simp only [h0, h1]
  rfl

/-- What grid point `t` writes back is block `t` of `layerArr` of the three arrays as the region finds them. -/
theorem flushed_eq (c : Dev nD) (t : Fin cfg2.N) :
    (dat2 (F := Ideal) V c).flushed 3 t
      = ((cfg2.win 3).blk t).view.read (Elt Ideal) (layerArr (V c main_v2) (V c main_v3) (V c main_v1)) := by
  show (cfg2.win 3).cut (grid2.coords t) ((dat2 V c).after 3 t) = _
  rw [after2_3]
  unfold out2_3
  rw [View.canon_unit_zero hz]
  simp only [View.ld_unit_zero (S := S1024x2048) hz, View.ld_unit_zero (S := S1x1024) hz]
  funext j
  obtain ⟨a, b, rfl⟩ : ∃ a b : Fin 1024, j = ix2 a b := ⟨j 0, j 1, eq_ix2 j⟩
  show k2_pay1 (iblk2 V c 0 t) (iblk2 V c 1 t) (iblk2 V c 2 t) (ix2 a b) = _
  refine (Cert.MatmulBody.k2_pay1_apply _ _ _ a b).trans ?_
  exact point_eq (V c main_v2) (V c main_v3) (V c main_v1) t a b

/-- An index of the output array is in point `t`'s block iff each coordinate is in the block's range on its axis. -/
theorem mem_blk (t : Fin cfg2.N) (i : S8192x8192.Idx) :
    i ∈ ((cfg2.win 3).blk t).view.set ↔ ∀ a : Fin 2, win2_3.index t a * S1024x1024.size a ≤ (i a).val
      ∧ (i a).val < win2_3.index t a * S1024x1024.size a + S1024x1024.size a := by
  show i ∈ ((View.whole main_v4).slice (win2_3.rect t)).set ↔ _
  rw [View.set_slice_whole, Rect.mem_set_unit]
  exact Iff.rfl

/-- The blocks tile the output: index `i` is in block `(i₀ / 1024, i₁ / 1024)`, which some grid point writes. -/
theorem covered (i : S8192x8192.Idx) :
    ∃ t : Fin cfg2.N, (cfg2.win 3).flush t = true ∧ i ∈ ((cfg2.win 3).blk t).view.set := by
  have hi0 : (i 0).val < 8192 := (i 0).isLt
  have hi1 : (i 1).val < 8192 := (i 1).isLt
  obtain ⟨t, ht⟩ := idx_onto ⟨(i 0).val / 1024, by omega⟩ ⟨(i 1).val / 1024, by omega⟩
  have q0 : win2_3.index t (0 : Fin 2) = (i 0).val / 1024 := congrFun ht 0
  have q1 : win2_3.index t (1 : Fin 2) = (i 1).val / 1024 := congrFun ht 1
  refine ⟨t, flush2_3 t, ?_⟩
  rw [mem_blk]
  intro a
  match a with
  | ⟨0, _⟩ =>
    show win2_3.index t (0 : Fin 2) * 1024 ≤ (i 0).val ∧ (i 0).val < win2_3.index t (0 : Fin 2) * 1024 + 1024
    omega
  | ⟨1, _⟩ =>
    show win2_3.index t (1 : Fin 2) * 1024 ≤ (i 1).val ∧ (i 1).val < win2_3.index t (1 : Fin 2) * 1024 + 1024
    omega

/-- THE OUTPUT ARRAY after the region: `layerArr` of the activations, the weights and the bias row as the region
    finds them. -/
theorem region2_arr (c : Dev nD) :
    (dat2 (F := Ideal) V c).arrAt 3 cfg2.N = layerArr (V c main_v2) (V c main_v3) (V c main_v1) :=
  (dat2 V c).arrAt_eq_of_cover 3 (layerArr (V c main_v2) (V c main_v3) (V c main_v1)) (fun t _ => flushed_eq V c t) covered

/-- The same with the three arrays named: whatever arrays `A2`, `A3`, `A1` the region finds, the output at
    `(i₀, i₁)` is `∑ k, A2 (i₀, k) · A3 (i₁, k) + A1 (0, i₁)`. -/
theorem region2_arr_of (c : Dev nD) (A2 A3 : FVec Ideal S8192x2048 .bf16) (A1 : FVec Ideal S1x8192 .f32)
    (h2 : V c main_v2 = A2) (h3 : V c main_v3 = A3) (h1 : V c main_v1 = A1) :
    (dat2 (F := Ideal) V c).arrAt 3 cfg2.N
      = (fun i : S8192x8192.Idx =>
          (∑ k : Fin 2048, A2 (ix2 (i 0) k) * A3 (ix2 (i 1) k)) + A1 (ix2 (0 : Fin 1) (i 1))) := by
  subst h2 h3 h1
  exact region2_arr V c

end Cert.Region2

end
-- ==== Proof.KernelChain.lean ====
/-
  The kernel program, boundary by boundary.

  The program views the activations `[4, 2048, 2048]` as `8192` rows and the bias as one row, quantises the
  activation rows (first call) and the weight rows (second call), forms every inner product of a quantised
  activation row with a quantised weight row plus the bias entry (third call), and views the `[8192, 8192]` result
  as `[4, 2048, 8192]`.  Each buffer is followed through these boundaries: a call rewrites its output array and
  leaves every other buffer alone; a change of view reads entry `(p, s, ·)` at row `2048·p + s`.  Row
  `2048·p + s` of the activations viewed as rows is row `(p, s)` of the argument, so the result at `(p, s, o)` is
  the specification's output there.
-/
import proofs.«107538_j90357521973659_2_alg».proof.Proof.Gen.KernelIdeal.Frame
import proofs.«107538_j90357521973659_2_alg».proof.Proof.Region01
import proofs.«107538_j90357521973659_2_alg».proof.Proof.Region2
import proofs.«107538_j90357521973659_2_alg».proof.Proof.QuantSpec
import proofs.«107538_j90357521973659_2_alg».proof.Proof.LibRowBlocks
import Idealize.ShloMosaic.Lib.StableHlo.Run
import Idealize.ShloMosaic.Lib.ValueLayout

noncomputable section

open scoped BigOperators

namespace Cert.KernelChain

open Idealize.ShloMosaic Idealize.ShloMosaic.TcCoe Idealize.ShloMosaic.ValueIdx Cert.KernelIdeal Cert.KernelIdeal.Gen

variable (m : (ℓ : Loc nD τ sig) → Buf (Elt Ideal) ℓ) (ρ : Dev nD → PrngReg) (c : Dev nD)

/-- Before the first call the activations are the argument viewed as `8192` rows. -/
theorem w1_v0 : W1 (F := Ideal) m ρ c (Proc.devRef .tc main_v0)
    = shapeCast S8192x2048 (m ((c : Thread nD τ).loc main_arg0)) Facts₀.shapeCasts_S4x2048x2048_S8192x2048 := by
  show StableHlo.after hostOps0 (W0 m ρ c) (Proc.devRef .tc main_v0) = _
  after_results
  rfl

/-- and the bias is the argument viewed as one row. -/
theorem w1_v1 : W1 (F := Ideal) m ρ c (Proc.devRef .tc main_v1)
    = shapeCast S1x8192 (m ((c : Thread nD τ).loc main_arg2)) Facts₀.shapeCasts_S8192_S1x8192 := by
  show StableHlo.after hostOps0 (W0 m ρ c) (Proc.devRef .tc main_v1) = _
  after_results
  rfl

/-- The weights are untouched. -/
theorem w1_arg1 : W1 (F := Ideal) m ρ c (Proc.devRef .tc main_arg1) = m ((c : Thread nD τ).loc main_arg1) := by
  show StableHlo.after hostOps0 (W0 m ρ c) (Proc.devRef .tc main_arg1) = _
  after_results

/-- Every row of an `[8192, 2048]` array quantised to four bits and read back. -/
abbrev rowQuant (A : S8192x2048.Idx → EReal) : S8192x2048.Idx → EReal :=
  fun i => Cert.QuantSpec.deq (fun k : Fin 2048 => A (ix2 (i 0) k)) (i 1)

/-- The activations viewed as `8192` rows, the bias viewed as one row. -/
abbrev xRows : S8192x2048.Idx → EReal :=
  shapeCast S8192x2048 (m ((c : Thread nD τ).loc main_arg0)) Facts₀.shapeCasts_S4x2048x2048_S8192x2048
abbrev biasRow : S1x8192.Idx → EReal :=
  shapeCast S1x8192 (m ((c : Thread nD τ).loc main_arg2)) Facts₀.shapeCasts_S8192_S1x8192

/-- After the first call: the activation rows quantised. -/
theorem w3_v2 : W3 (F := Ideal) m ρ c (Proc.devRef .tc main_v2) = rowQuant (xRows m c) :=
  (((W3_of_ne m ρ c main_v2 (by decide)).trans (W2_arr m ρ c 1)).trans (Cert.Region01.region0_arr (V1 m ρ) c)).trans
    (congrArg rowQuant (w1_v0 m ρ c))

/-- The second call finds the weights as launched. -/
theorem w2_arg1 : W2 (F := Ideal) m ρ c (Proc.devRef .tc main_arg1) = m ((c : Thread nD τ).loc main_arg1) :=
  (W2_of_ne m ρ c main_arg1 (by decide)).trans (w1_arg1 m ρ c)

/-- After the second call: the weight rows quantised. -/
theorem w3_v3 : W3 (F := Ideal) m ρ c (Proc.devRef .tc main_v3) = rowQuant (m ((c : Thread nD τ).loc main_arg1)) :=
  ((W3_arr m ρ c 1).trans (Cert.Region01.region1_arr (V2 m ρ) c)).trans (congrArg rowQuant (w2_arg1 m ρ c))

/-- Neither call touches the bias row. -/
theorem w3_v1 : W3 (F := Ideal) m ρ c (Proc.devRef .tc main_v1) = biasRow m c :=
  ((W3_of_ne m ρ c main_v1 (by decide)).trans (W2_of_ne m ρ c main_v1 (by decide))).trans (w1_v1 m ρ c)

/-- After the third call: inner products of quantised rows, plus the bias. -/
theorem w4_v4 : W4 (F := Ideal) m ρ c (Proc.devRef .tc main_v4)
    = (fun i : S8192x8192.Idx =>
        (∑ k : Fin 2048, rowQuant (xRows m c) (ix2 (i 0) k) * rowQuant (m ((c : Thread nD τ).loc main_arg1)) (ix2 (i 1) k))
          + biasRow m c (ix2 (0 : Fin 1) (i 1))) :=
  (W4_arr m ρ c 3).trans (Cert.Region2.region2_arr_of (V3 m ρ) c (rowQuant (xRows m c))
    (rowQuant (m ((c : Thread nD τ).loc main_arg1))) (biasRow m c) (w3_v2 m ρ c) (w3_v3 m ρ c) (w3_v1 m ρ c))

/-- The result is the third call's array viewed `[4, 2048, 8192]`. -/
theorem w5_v5 : W5 (F := Ideal) m ρ c (Proc.devRef .tc main_v5)
    = shapeCast S4x2048x8192 (W4 (F := Ideal) m ρ c (Proc.devRef .tc main_v4)) Facts₀.shapeCasts_S8192x8192_S4x2048x8192 := by
  show StableHlo.after hostOps3 (W4 m ρ c) (Proc.devRef .tc main_v5) = _
  generalize W4 (F := Ideal) m ρ c = X
  after_results
  rfl

/-- The kernel program's result is the specification's output array. -/
theorem result_eq : W5 (F := Ideal) m ρ c (Proc.devRef .tc main_v5)
    = Cert.QuantSpec.outArr (m ((c : Thread nD τ).loc main_arg0)) (m ((c : Thread nD τ).loc main_arg1))
        (m ((c : Thread nD τ).loc main_arg2)) := by
  refine (w5_v5 m ρ c).trans ?_
  funext i
  obtain ⟨p, s, o, rfl⟩ : ∃ (p : Fin 4) (s : Fin 2048) (o : Fin 8192), i = ix3 p s o := ⟨i 0, i 1, i 2, eq_ix3 i⟩
  have hp : p.val < 4 := p.isLt
  have hs : s.val < 2048 := s.isLt
  have hq : p.val * 2048 + s.val < 8192 := by omega
  refine (Cert.RowBlocks.shapeCast_split_apply _ _ p s o (⟨p.val * 2048 + s.val, hq⟩ : Fin 8192) rfl).trans ?_
  rw [w4_v4]
  show (∑ k : Fin 2048, rowQuant (xRows m c) (ix2 (⟨p.val * 2048 + s.val, hq⟩ : Fin 8192) k)
        * rowQuant (m ((c : Thread nD τ).loc main_arg1)) (ix2 o k)) + biasRow m c (ix2 (0 : Fin 1) o)
      = Cert.QuantSpec.out (m ((c : Thread nD τ).loc main_arg0)) (m ((c : Thread nD τ).loc main_arg1))
          (m ((c : Thread nD τ).loc main_arg2)) p s o
  unfold Cert.QuantSpec.out
  refine congrArg₂ (· + ·) (Finset.sum_congr rfl fun k _ => congrArg₂ (· * ·) ?_ rfl) ?_
  · exact congrArg (fun f : Fin 2048 → EReal => Cert.QuantSpec.deq f k) (funext fun k' =>
      Cert.RowBlocks.shapeCast_merge_apply (m ((c : Thread nD τ).loc main_arg0)) _ p s k'
        (⟨p.val * 2048 + s.val, hq⟩ : Fin 8192) rfl)
  · exact shapeCast_a_1a_apply (m ((c : Thread nD τ).loc main_arg2)) _ (0 : Fin 1) o

end Cert.KernelChain

end
-- ==== Proof.lean ====
/-
  Both programs compute one array, and the certificate says so.

  The layer quantises every activation row and every weight row to four bits and reads them back (the row's range
  widened to contain zero, fifteen steps, a rounded zero point, the grid clamped to 0 … 15), and its output at batch
  `p`, token `s`, output channel `o` is the inner product over the 2048 input channels of quantised activation row
  `(p, s)` with quantised weight row `o`, plus the bias at `o`.  On the extended reals the kernel program's three
  launches leave exactly that array, and the reference program leaves it too: the reference spells a quantised entry
  as `a + (q - a)`, which is `q` because the precondition makes every input a real number.  Each program also leaves
  its argument arrays as it found them.
-/
import proofs.«107538_j90357521973659_2_alg».proof.Defs
import proofs.«107538_j90357521973659_2_alg».proof.Proof.Gen.Kernel
import proofs.«107538_j90357521973659_2_alg».proof.Proof.Gen.Kernel.Skeleton
import proofs.«107538_j90357521973659_2_alg».proof.Proof.Gen.Kernel.Launch
import proofs.«107538_j90357521973659_2_alg».proof.Proof.Gen.Kernel.Points
import proofs.«107538_j90357521973659_2_alg».proof.Proof.Gen.Kernel.Frame
import proofs.«107538_j90357521973659_2_alg».proof.Proof.Gen.KernelIdeal
import proofs.«107538_j90357521973659_2_alg».proof.Proof.Gen.KernelIdeal.Skeleton
import proofs.«107538_j90357521973659_2_alg».proof.Proof.Gen.KernelIdeal.Launch
import proofs.«107538_j90357521973659_2_alg».proof.Proof.Gen.KernelIdeal.Points
import proofs.«107538_j90357521973659_2_alg».proof.Proof.Gen.KernelIdeal.Frame
import proofs.«107538_j90357521973659_2_alg».proof.Proof.Gen.ReferenceIdeal
import proofs.«107538_j90357521973659_2_alg».proof.Proof.Gen.Pre_finite_inputs
import proofs.«107538_j90357521973659_2_alg».proof.Proof.Gen.ReferenceIdeal.Run
import proofs.«107538_j90357521973659_2_alg».proof.Proof.Gen.ReferenceIdeal.Read
import proofs.«107538_j90357521973659_2_alg».proof.Proof.QuantSpec
import proofs.«107538_j90357521973659_2_alg».proof.Proof.FiniteInputs
import proofs.«107538_j90357521973659_2_alg».proof.Proof.KernelRun
import proofs.«107538_j90357521973659_2_alg».proof.Proof.RefBridge
import proofs.«107538_j90357521973659_2_alg».proof.Proof.KernelChain
import Idealize.ShloMosaic.Adequacy
import Idealize.ShloMosaic.Init

noncomputable section

namespace Cert.Proof

open Idealize.ShloMosaic Idealize.SL.Sem

/-- The kernel program as printed runs and leaves its arguments unchanged. -/
theorem frame_p : Cert.frame_Kernel (hKernel := Cert.Kernel.Gen.facts) (hPre_finite_inputs := Cert.Pre_finite_inputs.Gen.facts) :=
  fun m ρ _ => Cert.Kernel.Gen.frame m ρ

/-- The kernel program on the extended reals runs and leaves its arguments unchanged. -/
theorem frame_pi : Cert.frame_KernelIdeal (hKernelIdeal := Cert.KernelIdeal.Gen.facts) (hPre_finite_inputs := Cert.Pre_finite_inputs.Gen.facts) :=
  fun m ρ _ => Cert.KernelIdeal.Gen.frame m ρ

/-- The reference program on the extended reals runs and leaves its arguments unchanged. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealisation rewrote no operation: there is nothing to preserve. -/
theorem preserves : Cert.preserves_Kernel_KernelIdeal := trivial

/-- On the extended reals, from memories that agree on the arguments, the kernel program's result array and the
    reference program's are both the specification's output array of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.QuantSpec.outArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run _ _ _).mono (fun r h c => ⟨(h c).1.trans (Cert.KernelChain.result_eq m ρ c), (h c).2⟩)
      (Cert.KernelIdeal.Result.run_result (F := Ideal) m ρ)
  · refine (θ_run Cert.ReferenceIdeal.defs _ _).mono (fun _ h c => ⟨?_, (h c).2⟩)
      (Cert.ReferenceIdeal.Value.run (F := Ideal) m' ρ')
    obtain ⟨hr0, hr1⟩ := Cert.FiniteInputs.real_of_pre _ _ _ (hpre c)
    rw [(h c).1, Cert.ReferenceIdeal.Read.val_main_v61_eq, (hagree c).1, (hagree c).2.1, (hagree c).2.2]
    exact Cert.RefBridge.ref_eq _ _ _ hr0 hr1

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
